-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x1x1 : Shape := ⟨3, ![4096, 1, 1]⟩
abbrev S100001x128 : Shape := ⟨2, ![100001, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S4096x1x1 : S_.BroadcastsInDim S4096x1x1 (![] : Fin 0 → Fin S4096x1x1.rank)
  reducesTo_S4096x1x1_S_d0_1_2 : S4096x1x1.ReducesTo [0, 1, 2] S_

variable [Facts]

def fn {F : FTy → Type} [FloatOps F] (main_arg0 : IVec S4096x1x1 32) (main_arg1 : FVec F S100001x128 .f32) (main_arg2 : FVec F S100001x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_v4 : FVec F S100001x128 .f32 := Host.absf main_arg2
  let main_cst_0 : FVec F S_ .f32 := constant S_ .f32 0x7F800000#32
  let main_v5 : FVec F S100001x128 .f32 := broadcastInDim S100001x128 ![] bcast_S_S100001x128 main_cst_0
  let main_v6 : IVec S100001x128 1 := cmpf .olt main_v4 main_v5
  let main_c_1 : IVec S_ 1 := constantI S_ 1 1#1
  let main_v7 : IVec S_ 1 := (fun x v => Host.reduce IntOp.andi x v reducesTo_S100001x128_S_d0_1 h_S_) main_v6 main_c_1
  let main_v8 : IVec S_ 1 := andi main_v3 main_v7
  let main_c_2 : IVec S_ 32 := constantI S_ 32 0#32
  let main_v9 : IVec S4096x1x1 32 := broadcastInDim S4096x1x1 ![] bcast_S_S4096x1x1 main_c_2
  let main_v10 : IVec S4096x1x1 1 := cmpi .sge main_arg0 main_v9
  let main_c_3 : IVec S_ 32 := constantI S_ 32 100000#32
  let main_v11 : IVec S4096x1x1 32 := broadcastInDim S4096x1x1 ![] bcast_S_S4096x1x1 main_c_3
  let main_v12 : IVec S4096x1x1 1 := cmpi .sle main_arg0 main_v11
  let main_v13 : IVec S4096x1x1 1 := andi main_v10 main_v12
  let main_c_4 : IVec S_ 1 := constantI S_ 1 1#1
  let main_v14 : IVec S_ 1 := (fun x v => Host.reduce IntOp.andi x v reducesTo_S4096x1x1_S_d0_1_2 h_S_) main_v13 main_c_4
  let main_v15 : IVec S_ 1 := andi main_v8 main_v14
  main_v15
-- ==== Kernel.lean ====
abbrev S4096x1x1 : Shape := ⟨3, ![4096, 1, 1]⟩
abbrev S100001x128 : Shape := ⟨2, ![100001, 128]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S_ : Shape := ⟨0, ![]⟩

abbrev nBuf : Table → Nat
  | .hbm => 6
  | .local .scVector .vmem => 3
  | _ => 0

abbrev bufTy : (tb : Table) → Fin (nBuf tb) → BufTy
  | .hbm, ⟨0, _⟩ => ⟨S4096x1x1, .i32⟩
  | .hbm, ⟨1, _⟩ => ⟨S100001x128, .f32⟩
  | .hbm, ⟨2, _⟩ => ⟨S100001x128, .f32⟩
  | .hbm, ⟨3, _⟩ => ⟨S4096, .i32⟩
  | .hbm, ⟨4, _⟩ => ⟨S4096x128, .f32⟩
  | .hbm, ⟨5, _⟩ => ⟨S4096x128, .f32⟩
  | .local .scVector .vmem, ⟨0, _⟩ => ⟨S128, .i32⟩
  | .local .scVector .vmem, ⟨1, _⟩ => ⟨S128x128, .f32⟩
  | .local .scVector .vmem, ⟨2, _⟩ => ⟨S128x128, .f32⟩
  | _, _ => ⟨S4096x1x1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x1x1_S4096 : S4096x1x1.ShapeCasts S4096
  inb_S100001x128_S100001x128_0_0 : ∀ a, (![0, 0] : Fin 2 → Nat) a + S100001x128.size a ≤ S100001x128.size a
  gathers_S100001x128_S128x128 : S100001x128.Gathers 0 S128x128
  hcc0_scratch3 : 0 + S_.numel ≤ 4
  hcc0_scratch4 : 1 + S_.numel ≤ 4
  hcc0_scratch5 : 2 + S_.numel ≤ 4
  hcc0_scoped0 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off2_inb : ∀ i : grid0.Coords, ∀ a, (k0_off2 i) a + S128x128.size a ≤ S4096x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0

class Facts : Prop extends Facts₀ where

variable [Facts]
-- ==== ReferenceIdeal.lean ====
abbrev S4096x1x1 : Shape := ⟨3, ![4096, 1, 1]⟩
abbrev S100001x128 : Shape := ⟨2, ![100001, 128]⟩
abbrev S_ : Shape := ⟨0, ![]⟩
abbrev S4096x1x1x1 : Shape := ⟨4, ![4096, 1, 1, 1]⟩
abbrev S1 : Shape := ⟨1, ![1]⟩
abbrev S1x1x1x1 : Shape := ⟨4, ![1, 1, 1, 1]⟩
abbrev S4096x1x1x128 : Shape := ⟨4, ![4096, 1, 1, 128]⟩
abbrev S4096x128 : Shape := ⟨2, ![4096, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x1x1, .i32⟩
  | .hbm, ⟨1, _⟩ => ⟨S100001x128, .f32⟩
  | .hbm, ⟨2, _⟩ => ⟨S100001x128, .f32⟩
  | .hbm, ⟨3, _⟩ => ⟨S_, .i32⟩
  | .hbm, ⟨4, _⟩ => ⟨S4096x1x1, .i32⟩
  | .hbm, ⟨5, _⟩ => ⟨S4096x1x1, .i1⟩
  | .hbm, ⟨6, _⟩ => ⟨S_, .i32⟩
  | .hbm, ⟨7, _⟩ => ⟨S4096x1x1, .i32⟩
  | .hbm, ⟨8, _⟩ => ⟨S4096x1x1, .i32⟩
  | .hbm, ⟨9, _⟩ => ⟨S4096x1x1, .i32⟩
  | .hbm, ⟨10, _⟩ => ⟨S4096x1x1x1, .i32⟩
  | .hbm, ⟨11, _⟩ => ⟨S1, .i32⟩
  | .hbm, ⟨12, _⟩ => ⟨S_, .i32⟩
  | .hbm, ⟨13, _⟩ => ⟨S4096x1x1x1, .i32⟩
  | .hbm, ⟨14, _⟩ => ⟨S4096x1x1x1, .i1⟩
  | .hbm, ⟨15, _⟩ => ⟨S1x1x1x1, .i32⟩
  | .hbm, ⟨16, _⟩ => ⟨S4096x1x1x1, .i32⟩
  | .hbm, ⟨17, _⟩ => ⟨S4096x1x1x1, .i1⟩
  | .hbm, ⟨18, _⟩ => ⟨S4096x1x1x1, .i1⟩
  | .hbm, ⟨19, _⟩ => ⟨S_, .i1⟩
  | .hbm, ⟨20, _⟩ => ⟨S4096x1x1, .i1⟩
  | .hbm, ⟨21, _⟩ => ⟨S4096x1x1x128, .f32⟩
  | .hbm, ⟨22, _⟩ => ⟨S4096x1x1x128, .i1⟩
  | .hbm, ⟨23, _⟩ => ⟨S_, .f32⟩
  | .hbm, ⟨24, _⟩ => ⟨S4096x1x1x128, .f32⟩
  | .hbm, ⟨25, _⟩ => ⟨S4096x1x1x128, .f32⟩
  | .hbm, ⟨26, _⟩ => ⟨S4096x128, .f32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S_, .i32⟩
  | .hbm, ⟨31, _⟩ => ⟨S4096x1x1, .i32⟩
  | .hbm, ⟨32, _⟩ => ⟨S4096x1x1, .i32⟩
  | .hbm, ⟨33, _⟩ => ⟨S4096x1x1, .i32⟩
  | .hbm, ⟨34, _⟩ => ⟨S4096x1x1x1, .i32⟩
  | .hbm, ⟨35, _⟩ => ⟨S1, .i32⟩
  | .hbm, ⟨36, _⟩ => ⟨S_, .i32⟩
  | .hbm, ⟨37, _⟩ => ⟨S4096x1x1x1, .i32⟩
  | .hbm, ⟨38, _⟩ => ⟨S4096x1x1x1, .i1⟩
  | .hbm, ⟨39, _⟩ => ⟨S1x1x1x1, .i32⟩
  | .hbm, ⟨40, _⟩ => ⟨S4096x1x1x1, .i32⟩
  | .hbm, ⟨41, _⟩ => ⟨S4096x1x1x1, .i1⟩
  | .hbm, ⟨42, _⟩ => ⟨S4096x1x1x1, .i1⟩
  | .hbm, ⟨43, _⟩ => ⟨S_, .i1⟩
  | .hbm, ⟨44, _⟩ => ⟨S4096x1x1, .i1⟩
  | .hbm, ⟨45, _⟩ => ⟨S4096x1x1x128, .f32⟩
  | .hbm, ⟨46, _⟩ => ⟨S4096x1x1x128, .i1⟩
  | .hbm, ⟨47, _⟩ => ⟨S_, .f32⟩
  | .hbm, ⟨48, _⟩ => ⟨S4096x1x1x128, .f32⟩
  | .hbm, ⟨49, _⟩ => ⟨S4096x1x1x128, .f32⟩
  | .hbm, ⟨50, _⟩ => ⟨S4096x128, .f32⟩
  | _, _ => ⟨S4096x1x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩

abbrev nD : Nat := 1
abbrev τ : Topo := Topo.v7x

variable {F : FTy → Type} [FloatOps F]

class Facts₀ : Prop where
  bcast_S_S4096x1x1 : S_.BroadcastsInDim S4096x1x1 (![] : Fin 0 → Fin S4096x1x1.rank)
  bcast_S4096x1x1_S4096x1x1x1_0_1_2 : S4096x1x1.BroadcastsInDim S4096x1x1x1 (![0, 1, 2] : Fin 3 → Fin S4096x1x1x1.rank)
  bcast_S_S4096x1x1x1 : S_.BroadcastsInDim S4096x1x1x1 (![] : Fin 0 → Fin S4096x1x1x1.rank)
  bcast_S1_S1x1x1x1_3 : S1.BroadcastsInDim S1x1x1x1 (![3] : Fin 1 → Fin S1x1x1x1.rank)
  bcast_S1x1x1x1_S4096x1x1x1_0_1_2_3 : S1x1x1x1.BroadcastsInDim S4096x1x1x1 (![0, 1, 2, 3] : Fin 4 → Fin S4096x1x1x1.rank)
  reducesTo_S4096x1x1x1_S4096x1x1_d3 : S4096x1x1x1.ReducesTo [3] S4096x1x1
  h_S_ : 0 < S_.numel
  bcast_S4096x1x1_S4096x1x1x128_0_1_2 : S4096x1x1.BroadcastsInDim S4096x1x1x128 (![0, 1, 2] : Fin 3 → Fin S4096x1x1x128.rank)
  bcast_S_S4096x1x1x128 : S_.BroadcastsInDim S4096x1x1x128 (![] : Fin 0 → Fin S4096x1x1x128.rank)
  shapeCasts_S4096x1x1x128_S4096x128 : S4096x1x1x128.ShapeCasts S4096x128
  gather_S100001x128_S4096x1x1x1_S4096x1x1x128_3_0_n_n_0_3_1128_wf : GatherDims.WF S100001x128 S4096x1x1x1 S4096x1x1x128 [3] [0] [] [0] [] 3 ![1, 128]

variable [Facts₀]

def gather_S100001x128_S4096x1x1x1_S4096x1x1x128_3_0_n_n_0_3_1128 : GatherDims S100001x128 S4096x1x1x1 S4096x1x1x128 where
  offsetDims := [3]
  collapsedSliceDims := [0]
  operandBatchingDims := []
  startIndicesBatchingDims := []
  startIndexMap := [0]
  indexVectorDim := 3
  sliceSizes := ![1, 128]
  wf := gather_S100001x128_S4096x1x1x1_S4096x1x1x128_3_0_n_n_0_3_1128_wf

class Facts : Prop extends Facts₀ where

variable [Facts]
-- ==== Proof.Spec.lean ====
/-
  The function both programs compute: an embedding lookup. Row `r` of the result is row `idx[r]` of the table,
  the index word read as a natural number; every column is copied unchanged.
-/
import Idealize.ShloMosaic.PureOps.Ideal
import Idealize.ShloMosaic.Lib.ValueIdx

namespace Cert.Spec

open Idealize.ShloMosaic

/-- The index array, the table and the result: 4096 indices, a table of 100001 rows of 128 columns, 4096 result rows. -/
abbrev SI : Shape := ⟨3, ![4096, 1, 1]⟩
abbrev ST : Shape := ⟨2, ![100001, 128]⟩
abbrev SO : Shape := ⟨2, ![4096, 128]⟩

/-- The table row an index word names: its value as a natural number (reduced modulo the number of rows, so that the
    function is total; under the certificate's precondition every word is below 100001 and the reduction does nothing). -/
def rowOfWord (w : BitVec 32) : Fin 100001 := ⟨w.toNat % 100001, Nat.mod_lt _ (by decide)⟩

theorem rowOfWord_val_of_lt (w : BitVec 32) (h : w.toNat < 100001) : (rowOfWord w).val = w.toNat := Nat.mod_eq_of_lt h

/-- The lookup: entry `(r, k)` of the result is entry `(idx[r], k)` of the table. -/
def lookup {α : Type} (idx : SI.Idx → BitVec 32) (W : ST.Idx → α) : SO.Idx → α :=
  fun j => W (ValueIdx.ix2 (rowOfWord (idx (ValueIdx.ix3 (n0 := 4096) (n1 := 1) (n2 := 1) (j 0) 0 0))) (n1 := 128) (j 1))

theorem lookup_apply {α : Type} (idx : SI.Idx → BitVec 32) (W : ST.Idx → α) (r : Fin 4096) (k : Fin 128) :
    lookup idx W (ValueIdx.ix2 r k) = W (ValueIdx.ix2 (rowOfWord (idx (ValueIdx.ix3 r 0 0))) k) := rfl

end Cert.Spec
-- ==== Proof.KI.Setup.lean ====
/-
  The lookup kernel on the SparseCores: what each of the 32 vector subcores is handed, what it hands back, and the
  run of one subcore's task at a symbolic place.

  Subcore `s` of SparseCore `c` is task `w = 2 s + c`. It owns rows `[128 w, 128 w + 128)` of the flat index array
  and of both results, reads both tables (each through a read share of its own), copies its 128 indices into its
  index scratch, gathers the rows they name out of each table into a row scratch, and copies each row scratch out to
  its block of the matching result. So block `w` of result `h` ends as rows `idx[128 w + k]` of table `h`, and the
  same for `c`: the lookup, block by block.
-/
import proofs.«206929_g83056077570062_cont_9to1c4b_839_6_alg».proof.Defs
import proofs.«206929_g83056077570062_cont_9to1c4b_839_6_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«206929_g83056077570062_cont_9to1c4b_839_6_alg».proof.Proof.Gen.KernelIdeal
import proofs.«206929_g83056077570062_cont_9to1c4b_839_6_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The flat index array (the reshaped argument), the two tables, the two results, as locations of device `d`. -/
abbrev iLoc (d : Dev nD) : Loc nD τ sig := (SparseCore.T d).loc main_v0
abbrev hLoc (d : Dev nD) : Loc nD τ sig := (SparseCore.T d).loc main_arg1
abbrev cLoc (d : Dev nD) : Loc nD τ sig := (SparseCore.T d).loc main_arg2
abbrev ohLoc (d : Dev nD) : Loc nD τ sig := (SparseCore.T d).loc main_v1_0
abbrev ocLoc (d : Dev nD) : Loc nD τ sig := (SparseCore.T d).loc main_v1_1

local notation "iV" => (Memref.whole Cert.KernelIdeal.main_v0_scv : Memref Cert.KernelIdeal.sig Kind.scVector Space.hbm Cert.KernelIdeal.S4096 EltTy.i32)
local notation "hV" => (Memref.whole Cert.KernelIdeal.main_arg1_scv : Memref Cert.KernelIdeal.sig Kind.scVector Space.hbm Cert.KernelIdeal.S100001x128 EltTy.f32)
local notation "cV'" => (Memref.whole Cert.KernelIdeal.main_arg2_scv : Memref Cert.KernelIdeal.sig Kind.scVector Space.hbm Cert.KernelIdeal.S100001x128 EltTy.f32)
local notation "ohV" => (Memref.whole Cert.KernelIdeal.main_v1_0_scv : Memref Cert.KernelIdeal.sig Kind.scVector Space.hbm Cert.KernelIdeal.S4096x128 EltTy.f32)
local notation "ocV" => (Memref.whole Cert.KernelIdeal.main_v1_1_scv : Memref Cert.KernelIdeal.sig Kind.scVector Space.hbm Cert.KernelIdeal.S4096x128 EltTy.f32)
local notation "sI" => (Memref.whole Cert.KernelIdeal.cc0_scratch0 : Memref Cert.KernelIdeal.sig Kind.scVector Space.vmem Cert.KernelIdeal.S128 EltTy.i32)
local notation "sH" => (Memref.whole Cert.KernelIdeal.cc0_scratch1 : Memref Cert.KernelIdeal.sig Kind.scVector Space.vmem Cert.KernelIdeal.S128x128 EltTy.f32)
local notation "sC" => (Memref.whole Cert.KernelIdeal.cc0_scratch2 : Memref Cert.KernelIdeal.sig Kind.scVector Space.vmem Cert.KernelIdeal.S128x128 EltTy.f32)

/-- Thirty-two tasks, each a block of 128 rows of the index array and of each result. -/
theorem idiv : 32 ∣ S4096.size 0 := ⟨128, rfl⟩
theorem odiv : 32 ∣ S4096x128.size 0 := ⟨128, rfl⟩
abbrev irow (w : Fin 32) : Rect S4096 := Rect.part (s := S4096) (a₀ := 0) idiv w
abbrev orow (w : Fin 32) : Rect S4096x128 := Rect.part (s := S4096x128) (a₀ := 0) odiv w
abbrev iRowSet (w : Fin 32) : Finset S4096.Idx := ((iV).view.slice (irow w)).set
abbrev oRowSet (w : Fin 32) : Finset S4096x128.Idx := ((ohV).view.slice (orow w)).set

/-- Task `w`'s read share of a table: one of thirty-two tokens cut off the full share. -/
abbrev tq (w : Fin 32) : PosShare TreeShare := Transfers.shareTok fullShare 32 w

/-- The task of subcore `i` of SparseCore `c`. -/
def wid (c : Fin 2) (i : Fin 16) : Fin 32 := ⟨2 * i.val + c.val, by omega⟩

/-- The lookup over the FLAT index array: entry `(r, k)` is entry `(idx[r], k)` of the table. -/
def lookF {α : Type} (vi : S4096.Idx → BitVec 32) (W : S100001x128.Idx → α) : S4096x128.Idx → α :=
  fun j => W (ValueIdx.ix2 (Cert.Spec.rowOfWord (vi (ValueIdx.ix1 (n := 4096) (j 0)))) (n1 := 128) (j 1))

variable [FloatOps F]

/-! ## What the handshakes carry -/

section Pieces
variable (d : Dev nD) (vi : Buf (Elt F) (iLoc d))

/-- What task `w` is handed: its block of the index array, a read share of each table, its block of each result. -/
def goPiece (w : Fin 32) : sProp 𝕄 :=
  iprop((iLoc d ↦[iRowSet w]{fullShare} vi) ∗ (hLoc d ↦{tq w} m (hLoc d)) ∗ (cLoc d ↦{tq w} m (cLoc d))
    ∗ (ohLoc d ↦[oRowSet w]{fullShare} m (ohLoc d)) ∗ (ocLoc d ↦[oRowSet w]{fullShare} m (ocLoc d)))

/-- What it hands back: the same, each result block now the looked-up rows. -/
def tdPiece (w : Fin 32) : sProp 𝕄 :=
  iprop((iLoc d ↦[iRowSet w]{fullShare} vi) ∗ (hLoc d ↦{tq w} m (hLoc d)) ∗ (cLoc d ↦{tq w} m (cLoc d))
    ∗ (ohLoc d ↦[oRowSet w]{fullShare} (lookF vi (m (hLoc d)) : Buf (Elt F) (ohLoc d)))
    ∗ (ocLoc d ↦[oRowSet w]{fullShare} (lookF vi (m (cLoc d)) : Buf (Elt F) (ocLoc d))))

end Pieces

/-- The one call: SparseCore `c` takes its sixteen tasks' pieces and brings them back; task `(c, i)` takes piece `2 i + c`. -/
def P (vi : (d : Dev nD) → Buf (Elt F) (iLoc d)) : (K (F := F)).Pay (nD := nD) (Val := Elt F) (Name := ℕ) (U := UU) where
  st := fun q d c => match q with
    | 0 => bigSep Finset.univ fun i : Fin ((K (F := F)).nSub 0) => goPiece m d (vi d) (wid (Fin.cast nCore_zero c) (Fin.cast nSub_zero i))
  dn := fun q d c => match q with
    | 0 => bigSep Finset.univ fun i : Fin ((K (F := F)).nSub 0) => tdPiece m d (vi d) (wid (Fin.cast nCore_zero c) (Fin.cast nSub_zero i))
  go := fun q d c i => match q with | 0 => goPiece m d (vi d) (wid (Fin.cast nCore_zero c) (Fin.cast nSub_zero i))
  td := fun q d c i => match q with | 0 => tdPiece m d (vi d) (wid (Fin.cast nCore_zero c) (Fin.cast nSub_zero i))
  x := fun _ _ => iprop(emp)

instance goPiece_storable (d : Dev nD) (vi : Buf (Elt F) (iLoc d)) (w : Fin 32) : BI.Storable (upEmb : UEmb _ 𝕄) (goPiece m d vi w) := by
  unfold goPiece; infer_instance
instance tdPiece_storable (d : Dev nD) (vi : Buf (Elt F) (iLoc d)) (w : Fin 32) : BI.Storable (upEmb : UEmb _ 𝕄) (tdPiece m d vi w) := by
  unfold tdPiece; infer_instance

instance P_storable (vi : (d : Dev nD) → Buf (Elt F) (iLoc d)) : (P (F := F) m vi).IsStorable where
  st q d c := match q with
    | 0 => (inferInstance : BI.Storable (upEmb : UEmb _ 𝕄)
        (bigSep Finset.univ fun i : Fin ((K (F := F)).nSub 0) => goPiece m d (vi d) (wid (Fin.cast nCore_zero c) (Fin.cast nSub_zero i))))
  dn q d c := match q with
    | 0 => (inferInstance : BI.Storable (upEmb : UEmb _ 𝕄)
        (bigSep Finset.univ fun i : Fin ((K (F := F)).nSub 0) => tdPiece m d (vi d) (wid (Fin.cast nCore_zero c) (Fin.cast nSub_zero i))))
  go q d c i := match q with
    | 0 => (inferInstance : BI.Storable (upEmb : UEmb _ 𝕄) (goPiece m d (vi d) (wid (Fin.cast nCore_zero c) (Fin.cast nSub_zero i))))
  td q d c i := match q with
    | 0 => (inferInstance : BI.Storable (upEmb : UEmb _ 𝕄) (tdPiece m d (vi d) (wid (Fin.cast nCore_zero c) (Fin.cast nSub_zero i))))

end Cert.Proof.KI

end
-- ==== Proof.KI.Geom.lean ====
/-
  The geometry of one subcore's task at a symbolic place `L = (c, s)`: its task number, its blocks of the index array
  and of the results as the task addresses them, its semaphores and scratch buffers among the subcore's own, and the
  fact that the words it copies into its index scratch name table rows.
-/
import proofs.«206929_g83056077570062_cont_9to1c4b_839_6_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S4096 EltTy.i32)
local notation "hV" => (Memref.whole Cert.KernelIdeal.main_arg1_scv : Memref Cert.KernelIdeal.sig Kind.scVector Space.hbm Cert.KernelIdeal.S100001x128 EltTy.f32)
local notation "cV'" => (Memref.whole Cert.KernelIdeal.main_arg2_scv : Memref Cert.KernelIdeal.sig Kind.scVector Space.hbm Cert.KernelIdeal.S100001x128 EltTy.f32)
local notation "ohV" => (Memref.whole Cert.KernelIdeal.main_v1_0_scv : Memref Cert.KernelIdeal.sig Kind.scVector Space.hbm Cert.KernelIdeal.S4096x128 EltTy.f32)
local notation "ocV" => (Memref.whole Cert.KernelIdeal.main_v1_1_scv : Memref Cert.KernelIdeal.sig Kind.scVector Space.hbm Cert.KernelIdeal.S4096x128 EltTy.f32)
local notation "sI" => (Memref.whole Cert.KernelIdeal.cc0_scratch0 : Memref Cert.KernelIdeal.sig Kind.scVector Space.vmem Cert.KernelIdeal.S128 EltTy.i32)
local notation "sH" => (Memref.whole Cert.KernelIdeal.cc0_scratch1 : Memref Cert.KernelIdeal.sig Kind.scVector Space.vmem Cert.KernelIdeal.S128x128 EltTy.f32)
local notation "sC" => (Memref.whole Cert.KernelIdeal.cc0_scratch2 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords) (vi : Buf (Elt F) (iLoc d))

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The task at place `L`. -/
abbrev wL (L : grid0.Coords) : Fin 32 :=
  ⟨2 * (L 1).val + (L 0).val, by have h0 : (L 0).val < 2 := (L 0).isLt; have h1 : (L 1).val < 16 := (L 1).isLt; omega⟩

abbrev irowK (L : grid0.Coords) : Rect S4096 := Rect.unit (s := S4096) (k0_off1 L) S128.size (k0_off1_inb L)
abbrev orowK (L : grid0.Coords) : Rect S4096x128 := Rect.unit (s := S4096x128) (k0_off2 L) S128x128.size (k0_off2_inb L)
/-- The task's block of the index array and of each result, and a table whole, as the task addresses them. -/
abbrev iRowK (L : grid0.Coords) : Memref sig .scVector .hbm S128 .i32 := (iV).slice (irowK L) (fun _ => rfl)
abbrev ohRowK (L : grid0.Coords) : Memref sig .scVector .hbm S128x128 .f32 := (ohV).slice (orowK L) (fun _ => rfl)
abbrev ocRowK (L : grid0.Coords) : Memref sig .scVector .hbm S128x128 .f32 := (ocV).slice (orowK L) (fun _ => rfl)

omit [FloatOps F] in
theorem irowK_eq : irowK L = irow (wL L) := by
  unfold irowK irow Rect.part Rect.block
  congr 1 <;> funext a
  · rw [k0_off1_eq]
    match a with
    | 0 => simp [Shape.partIx, Shape.partSize]; omega
  · match a with
    | 0 => simp [Shape.partSize]
omit [FloatOps F] in
theorem orowK_eq : orowK L = orow (wL L) := by
  unfold orowK orow Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_ohRowK : (ohRowK L).view.set = oRowSet (wL L) := by
  show ((ohV).view.slice (orowK L)).set = ((ohV).view.slice (orow (wL L))).set
  exact orowK_eq L ▸ rfl

abbrev cGcell (d : Dev nD) (c : Fin τ.nSC) (i : Fin τ.nSub) : GSem nD τ sig := (V d c i, .dma cc0_scoped0.sem)
abbrev cHcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scratch4.sem)
abbrev cWcell (d : Dev nD) (c : Fin τ.nSC) (i : Fin τ.nSub) : GSem nD τ sig := (V d c i, .dma cc0_scratch5.sem)

omit [FloatOps F] in
/-- The subcore's four DMA semaphores are among its own cells: they are them, at zero, and the rest. -/
theorem ownSems0_V :
    (ownSems0 (V d (cV L) (jV L)) : sProp 𝕄)
      = iprop(semVal (cGcell d (cV L) (jV L)) 0 ∗ semVal (cHcell d (cV L) (jV L)) 0 ∗ semVal (cCcell d (cV L) (jV L)) 0 ∗ semVal (cWcell d (cV L) (jV L)) 0
          ∗ bigSep (((((ownCells (V d (cV L) (jV L))).erase (cGcell d (cV L) (jV L))).erase (cHcell d (cV L) (jV L))).erase (cCcell d (cV L) (jV L))).erase (cWcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scoped0.sem : SemLoc sig).isScoped .scVector = true; decide⟩),
    SparseCore.bigSep_erase' (Finset.mem_erase.mpr ⟨by simp [cGcell, cHcell]; decide, (mem_ownCells (g := cHcell d (cV L) (jV L))).mpr ⟨rfl, by
      show (SemLoc.dma cc0_scratch3.sem : SemLoc sig).isScoped .scVector = true; decide⟩⟩),
    SparseCore.bigSep_erase' (Finset.mem_erase.mpr ⟨by simp [cHcell, cCcell]; decide, Finset.mem_erase.mpr ⟨by simp [cGcell, cCcell]; decide,
      (mem_ownCells (g := cCcell d (cV L) (jV L))).mpr ⟨rfl, by show (SemLoc.dma cc0_scratch4.sem : SemLoc sig).isScoped .scVector = true; decide⟩⟩⟩),
    SparseCore.bigSep_erase' (Finset.mem_erase.mpr ⟨by simp [cCcell, cWcell]; decide, Finset.mem_erase.mpr ⟨by simp [cHcell, cWcell]; decide,
      Finset.mem_erase.mpr ⟨by simp [cGcell, cWcell]; decide,
      (mem_ownCells (g := cWcell d (cV L) (jV L))).mpr ⟨rfl, by show (SemLoc.dma cc0_scratch5.sem : SemLoc sig).isScoped .scVector = true; decide⟩⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_ohRowK (f : Buf (Elt F) (ohLoc d)) :
    ((ohRowK L).view.loc (V d (cV L) (jV L)) ↦[(ohRowK L).view.set]{fullShare} f : sProp 𝕄) = ohLoc d ↦[oRowSet (wL L)]{fullShare} f := by
  rw [set_ohRowK]
omit [FloatOps F] in
theorem pts_ocRowK (f : Buf (Elt F) (ocLoc d)) :
    ((ocRowK L).view.loc (V d (cV L) (jV L)) ↦[(ocRowK L).view.set]{fullShare} f : sProp 𝕄) = ocLoc d ↦[oRowSet (wL L)]{fullShare} f := by
  show ((ocRowK L).view.loc (V d (cV L) (jV L)) ↦[((ocV).view.slice (orowK L)).set]{fullShare} f : sProp 𝕄) = ocLoc d ↦[((ohV).view.slice (orow (wL L))).set]{fullShare} f
  rw [orowK_eq]; rfl
omit [FloatOps F] in
theorem pts_hV (q : PosShare TreeShare) (f : Buf (Elt F) (hLoc d)) :
    ((hV).view.loc (V d (cV L) (jV L)) ↦{q} f : sProp 𝕄) = hLoc d ↦{q} f := rfl
omit [FloatOps F] in
theorem pts_cV (q : PosShare TreeShare) (f : Buf (Elt F) (cLoc d)) :
    ((cV').view.loc (V d (cV L) (jV L)) ↦{q} f : sProp 𝕄) = cLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sH (f : Buf (Elt F) ((V d (cV L) (jV L)).loc cc0_scratch1)) :
    ((sH).view.loc (V d (cV L) (jV L)) ↦{fullShare} f : sProp 𝕄) = (V d (cV L) (jV L)).loc cc0_scratch1 ↦{fullShare} f := rfl
omit [FloatOps F] in
theorem pts_sC (f : Buf (Elt F) ((V d (cV L) (jV L)).loc cc0_scratch2)) :
    ((sC).view.loc (V d (cV L) (jV L)) ↦{fullShare} f : sProp 𝕄) = (V d (cV L) (jV L)).loc cc0_scratch2 ↦{fullShare} f := rfl

omit [FloatOps F] in
/-- The words the index copy lands in the index scratch are the task's block of the index array: each names a table row. -/
theorem idx_inb (hpre : ∀ j, (vi j).toNat < 100001) (fs : Buf (Elt F) ((V d (cV L) (jV L)).loc cc0_scratch0)) :
    ∀ x, ((sI).view.read (Elt F) (View.write (Elt F) (sI).view fs (ReadAs.same.apply ((iRowK L).view.read (Elt F) vi)) Finset.univ) x).toNat
      < S100001x128.size gathers_S100001x128_S128x128.axis := by
  intro x
  rw [View.write_whole_univ]
  simp only [Memref.view_whole, View.read_whole]
  show (((iRowK L).view.read (Elt F) vi) x).toNat < 100001
  rw [View.read_apply]
  exact hpre _

end Tile

end Cert.Proof.KI

end
-- ==== Proof.KI.Value.lean ====
/-
  What one task's gathers and copies leave in its block of a result, as a function of the index array and the table:
  entry `(128 w + r, k)` is entry `(idx[128 w + r], k)` of the table, which is the lookup at that entry.
-/
import proofs.«206929_g83056077570062_cont_9to1c4b_839_6_alg».proof.Proof.KI.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S4096 EltTy.i32)
local notation "hV" => (Memref.whole Cert.KernelIdeal.main_arg1_scv : Memref Cert.KernelIdeal.sig Kind.scVector Space.hbm Cert.KernelIdeal.S100001x128 EltTy.f32)
local notation "cV'" => (Memref.whole Cert.KernelIdeal.main_arg2_scv : Memref Cert.KernelIdeal.sig Kind.scVector Space.hbm Cert.KernelIdeal.S100001x128 EltTy.f32)
local notation "ohV" => (Memref.whole Cert.KernelIdeal.main_v1_0_scv : Memref Cert.KernelIdeal.sig Kind.scVector Space.hbm Cert.KernelIdeal.S4096x128 EltTy.f32)
local notation "ocV" => (Memref.whole Cert.KernelIdeal.main_v1_1_scv : Memref Cert.KernelIdeal.sig Kind.scVector Space.hbm Cert.KernelIdeal.S4096x128 EltTy.f32)
local notation "sI" => (Memref.whole Cert.KernelIdeal.cc0_scratch0 : Memref Cert.KernelIdeal.sig Kind.scVector Space.vmem Cert.KernelIdeal.S128 EltTy.i32)
local notation "sH" => (Memref.whole Cert.KernelIdeal.cc0_scratch1 : Memref Cert.KernelIdeal.sig Kind.scVector Space.vmem Cert.KernelIdeal.S128x128 EltTy.f32)
local notation "sC" => (Memref.whole Cert.KernelIdeal.cc0_scratch2 : Memref Cert.KernelIdeal.sig Kind.scVector Space.vmem Cert.KernelIdeal.S128x128 EltTy.f32)

/-- The row the gather reads for list entry `k`: the word at position `k` of the list. -/
theorem rows_val (idxf : S128.Idx → Elt F .i32) (hn : S128.numel = S128x128.size gathers_S100001x128_S128x128.axis')
    (hin : ∀ x, (idxf x).toNat < S100001x128.size gathers_S100001x128_S128x128.axis) (k : Fin (S128x128.size gathers_S100001x128_S128x128.axis')) :
    (SparseCore.rows idxf hn hin k).val = (idxf (ix1 (n := 128) ⟨k.val, k.isLt⟩)).toNat := by
  unfold SparseCore.rows
  show (idxf (S128.rowMajor.symm (k.cast hn.symm))).toNat = _
  congr 2
  rw [Equiv.symm_apply_eq]
  apply Fin.ext
  rw [Shape.rowMajor_val_one]
  rfl

/-- The gather's payload at entry `(r, k)`: the table at row `list[r]`, column `k`. -/
theorem gathered_apply (Wt : S100001x128.Idx → Elt F .f32) (idxf : S128.Idx → Elt F .i32)
    (hn : S128.numel = S128x128.size gathers_S100001x128_S128x128.axis')
    (hin : ∀ x, (idxf x).toNat < S100001x128.size gathers_S100001x128_S128x128.axis) (r k : Fin 128) :
    SparseCore.gatherPayload gathers_S100001x128_S128x128 Wt (SparseCore.rows idxf hn hin) (ix2 r k)
      = Wt (ix2 (⟨(idxf (ix1 r)).toNat, hin _⟩ : Fin 100001) k) := by
  unfold SparseCore.gatherPayload
  refine congrArg Wt ?_
  funext b
  apply Fin.ext
  match b with
  | ⟨0, _⟩ =>
    have h := Shape.Gathers.idx_axis gathers_S100001x128_S128x128 (SparseCore.rows idxf hn hin) (ix2 r k)
    have h' := congrArg Fin.val h
    refine h'.trans ?_
    rw [rows_val]
  | ⟨1, _⟩ =>
    exact Shape.Gathers.idx_of_ne gathers_S100001x128_S128x128 (SparseCore.rows idxf hn hin) (ix2 r k) ⟨1, by decide⟩ (by decide)

variable (d : Dev nD) (L : grid0.Coords)

/-- Element `r` of the task's block of the index array is element `128 w + r` of the array. -/
theorem iRowK_emb (r : Fin 128) :
    (iRowK L).view.emb (ix1 r) = ix1 (n := 4096) ⟨128 * (wL L).val + r.val, by have := (wL L).isLt; omega⟩ := by
  funext a
  apply Fin.ext
  match a with
  | ⟨0, _⟩ =>
    show (k0_off1 L) 0 + 1 * r.val = 128 * (wL L).val + r.val
    rw [k0_off1_eq]
    show 256 * (L 1).val + 128 * (L 0).val + 1 * r.val = 128 * (2 * (L 1).val + (L 0).val) + r.val
    omega

/-- Element `(r, k)` of the task's block of a result is element `(128 w + r, k)` of the result. -/
theorem ohRowK_emb (r k : Fin 128) :
    (ohRowK L).view.emb (ix2 r k) = ix2 (n0 := 4096) ⟨128 * (wL L).val + r.val, by have := (wL L).isLt; omega⟩ k := by
  funext a
  apply Fin.ext
  match a with
  | ⟨0, _⟩ =>
    show (k0_off2 L) 0 + 1 * r.val = 128 * (wL L).val + r.val
    rw [k0_off2_eq]
    show 256 * (L 1).val + 128 * (L 0).val + 1 * r.val = 128 * (2 * (L 1).val + (L 0).val) + r.val
    omega
  | ⟨1, _⟩ =>
    show (k0_off2 L) 1 + 1 * k.val = k.val
    rw [k0_off2_eq]
    show 0 + 1 * k.val = k.val
    omega

/-- A block written whole with `pay` holds, at each of its elements, what any whole-array function `g` holds there,
    as soon as `g` restricted to the block is `pay`. -/
theorem block_congr {κ : Kind} {sp : Space} {s : Shape} {e : EltTy} (v : View sig κ sp s e) (f0 g : v.ty.Contents (Elt F))
    (pay : s.Idx → Elt F e) (h : ∀ x, v.read (Elt F) g x = pay x) :
    ∀ i ∈ v.set, v.writes (Elt F) f0 [⟨Rect.whole s, pay⟩] i = g i := by
  intro i hi
  obtain ⟨x, -, rfl⟩ := Finset.mem_map.mp hi
  have h1 := View.read_writes_cons_emb v f0 (Rect.whole s) pay [] x
  rw [Rect.emb_whole_apply, ← h x, View.read_apply, View.read_apply] at h1
  exact (cast_inj _).mp h1

/-- Reading a scratch buffer whole after it was written whole gives what was written. -/
theorem read_whole_written {κ : Kind} (b : Ref sig κ) (f0 : b.ty.Contents (Elt F)) (pay : b.ty.shape.Idx → Elt F b.ty.elt) :
    ReadAs.same.apply (View.read (Elt F) (Memref.whole b).view ((Memref.whole b).view.writes (Elt F) f0 [⟨Rect.whole b.ty.shape, pay⟩])) = pay := by
  rw [ReadAs.apply_same]
  funext x
  have h1 := View.read_writes_cons_emb (Memref.whole b).view f0 (Rect.whole b.ty.shape) pay [] x
  rwa [Rect.emb_whole_apply] at h1

/-- Word `r` of the index scratch, once the task's block of the index array has been copied in, is `idx[128 w + r]`. -/
theorem list_read (vi : Buf (Elt F) (iLoc d)) (fsi : Buf (Elt F) ((V d (cV L) (jV L)).loc cc0_scratch0)) (r : Fin 128) :
    View.read (Elt F) (sI).view (View.write (Elt F) (sI).view fsi (ReadAs.same.apply ((iRowK L).view.read (Elt F) vi)) Finset.univ) (ix1 r)
      = vi (ix1 (n := 4096) ⟨128 * (wL L).val + r.val, by have := (wL L).isLt; omega⟩) := by
  rw [View.write_whole_univ]
  simp only [Memref.view_whole, View.read_whole, ReadAs.apply_same]
  show View.read (Elt F) (iRowK L).view vi (ix1 r) = _
  rw [View.read_apply, iRowK_emb]
  rfl

/-- Element `(r, k)` of the task's block of result `h` is element `(128 w + r, k)` of the result. -/
theorem ohRowK_emb' (r k : Fin 128) :
    (ohRowK L).view.emb (ix2 r k) = ix2 (n0 := 4096) ⟨128 * (wL L).val + r.val, by have := (wL L).isLt; omega⟩ k := by
  funext a
  apply Fin.ext
  match a with
  | ⟨0, _⟩ =>
    show (k0_off2 L) 0 + 1 * r.val = 128 * (wL L).val + r.val
    rw [k0_off2_eq]
    show 256 * (L 1).val + 128 * (L 0).val + 1 * r.val = 128 * (2 * (L 1).val + (L 0).val) + r.val
    omega
  | ⟨1, _⟩ =>
    show (k0_off2 L) 1 + 1 * k.val = k.val
    rw [k0_off2_eq]
    show 0 + 1 * k.val = k.val
    omega

/-- Table `h`, addressed whole through a slice, reads as itself. -/
theorem read_tbl_h (hr : ∀ a, (Rect.unit (s := S100001x128) ![0, 0] S100001x128.size inb_S100001x128_S100001x128_0_0).stride a = 1)
    (Wt : Buf (Elt F) (hLoc d)) :
    View.read (Elt F) ((hV).slice (Rect.unit (s := S100001x128) ![0, 0] S100001x128.size inb_S100001x128_S100001x128_0_0) hr).view Wt = Wt := by
  funext x
  rw [View.read_apply]
  refine (cast_eq _ _).trans (congrArg Wt ?_)
  funext a
  apply Fin.ext
  match a with
  | ⟨0, _⟩ => show 0 + 1 * (x 0).val = (x 0).val; omega
  | ⟨1, _⟩ => show 0 + 1 * (x 1).val = (x 1).val; omega

/-- What the gather out of table `h` leaves at entry `(r, k)` of the row scratch: the table at row `idx[128 w + r]`. -/
theorem gathered_h (vi : Buf (Elt F) (iLoc d)) (Wt : Buf (Elt F) (hLoc d)) (hpre : ∀ j, (vi j).toNat < 100001)
    (fsi : Buf (Elt F) ((V d (cV L) (jV L)).loc cc0_scratch0))
    (hr : ∀ a, (Rect.unit (s := S100001x128) ![0, 0] S100001x128.size inb_S100001x128_S100001x128_0_0).stride a = 1)
    (hn : S128.numel = S128x128.size gathers_S100001x128_S128x128.axis')
    (hin : ∀ x, ((sI).view.read (Elt F) (View.write (Elt F) (sI).view fsi (ReadAs.same.apply ((iRowK L).view.read (Elt F) vi)) Finset.univ) x).toNat
      < S100001x128.size gathers_S100001x128_S128x128.axis) (r k : Fin 128) :
    SparseCore.gatherPayload gathers_S100001x128_S128x128
        (View.read (Elt F) ((hV).slice (Rect.unit (s := S100001x128) ![0, 0] S100001x128.size inb_S100001x128_S100001x128_0_0) hr).view Wt)
        (SparseCore.rows (View.read (Elt F) (sI).view (View.write (Elt F) (sI).view fsi (ReadAs.same.apply ((iRowK L).view.read (Elt F) vi)) Finset.univ)) hn hin)
        (ix2 r k)
      = Wt (ix2 (⟨(vi (ix1 (n := 4096) ⟨128 * (wL L).val + r.val, by have := (wL L).isLt; omega⟩)).toNat, hpre _⟩ : Fin 100001) k) := by
  refine (gathered_apply _ _ hn hin r k).trans ?_
  rw [read_tbl_h]
  refine congrArg Wt ?_
  funext a
  apply Fin.ext
  match a with
  | ⟨0, _⟩ => exact congrArg BitVec.toNat (list_read d L vi fsi r)
  | ⟨1, _⟩ => rfl

/-- The lookup at an element of the task's block of result `h`. -/
theorem lookF_emb_h (vi : Buf (Elt F) (iLoc d)) (Wt : Buf (Elt F) (hLoc d)) (hpre : ∀ j, (vi j).toNat < 100001) (r k : Fin 128) :
    (lookF vi Wt : Buf (Elt F) (ohLoc d)) ((ohRowK L).view.emb (ix2 r k))
      = Wt (ix2 (⟨(vi (ix1 (n := 4096) ⟨128 * (wL L).val + r.val, by have := (wL L).isLt; omega⟩)).toNat, hpre _⟩ : Fin 100001) k) := by
  rw [ohRowK_emb']
  unfold lookF
  refine congrArg Wt ?_
  funext a
  apply Fin.ext
  match a with
  | ⟨0, _⟩ => exact Cert.Spec.rowOfWord_val_of_lt _ (hpre _)
  | ⟨1, _⟩ => rfl

/-- Element `(r, k)` of the task's block of result `c` is element `(128 w + r, k)` of the result. -/
theorem ocRowK_emb' (r k : Fin 128) :
    (ocRowK L).view.emb (ix2 r k) = ix2 (n0 := 4096) ⟨128 * (wL L).val + r.val, by have := (wL L).isLt; omega⟩ k := by
  funext a
  apply Fin.ext
  match a with
  | ⟨0, _⟩ =>
    show (k0_off2 L) 0 + 1 * r.val = 128 * (wL L).val + r.val
    rw [k0_off2_eq]
    show 256 * (L 1).val + 128 * (L 0).val + 1 * r.val = 128 * (2 * (L 1).val + (L 0).val) + r.val
    omega
  | ⟨1, _⟩ =>
    show (k0_off2 L) 1 + 1 * k.val = k.val
    rw [k0_off2_eq]
    show 0 + 1 * k.val = k.val
    omega

/-- Table `c`, addressed whole through a slice, reads as itself. -/
theorem read_tbl_c (hr : ∀ a, (Rect.unit (s := S100001x128) ![0, 0] S100001x128.size inb_S100001x128_S100001x128_0_0).stride a = 1)
    (Wt : Buf (Elt F) (cLoc d)) :
    View.read (Elt F) ((cV').slice (Rect.unit (s := S100001x128) ![0, 0] S100001x128.size inb_S100001x128_S100001x128_0_0) hr).view Wt = Wt := by
  funext x
  rw [View.read_apply]
  refine (cast_eq _ _).trans (congrArg Wt ?_)
  funext a
  apply Fin.ext
  match a with
  | ⟨0, _⟩ => show 0 + 1 * (x 0).val = (x 0).val; omega
  | ⟨1, _⟩ => show 0 + 1 * (x 1).val = (x 1).val; omega

/-- What the gather out of table `c` leaves at entry `(r, k)` of the row scratch: the table at row `idx[128 w + r]`. -/
theorem gathered_c (vi : Buf (Elt F) (iLoc d)) (Wt : Buf (Elt F) (cLoc d)) (hpre : ∀ j, (vi j).toNat < 100001)
    (fsi : Buf (Elt F) ((V d (cV L) (jV L)).loc cc0_scratch0))
    (hr : ∀ a, (Rect.unit (s := S100001x128) ![0, 0] S100001x128.size inb_S100001x128_S100001x128_0_0).stride a = 1)
    (hn : S128.numel = S128x128.size gathers_S100001x128_S128x128.axis')
    (hin : ∀ x, ((sI).view.read (Elt F) (View.write (Elt F) (sI).view fsi (ReadAs.same.apply ((iRowK L).view.read (Elt F) vi)) Finset.univ) x).toNat
      < S100001x128.size gathers_S100001x128_S128x128.axis) (r k : Fin 128) :
    SparseCore.gatherPayload gathers_S100001x128_S128x128
        (View.read (Elt F) ((cV').slice (Rect.unit (s := S100001x128) ![0, 0] S100001x128.size inb_S100001x128_S100001x128_0_0) hr).view Wt)
        (SparseCore.rows (View.read (Elt F) (sI).view (View.write (Elt F) (sI).view fsi (ReadAs.same.apply ((iRowK L).view.read (Elt F) vi)) Finset.univ)) hn hin)
        (ix2 r k)
      = Wt (ix2 (⟨(vi (ix1 (n := 4096) ⟨128 * (wL L).val + r.val, by have := (wL L).isLt; omega⟩)).toNat, hpre _⟩ : Fin 100001) k) := by
  refine (gathered_apply _ _ hn hin r k).trans ?_
  rw [read_tbl_c]
  refine congrArg Wt ?_
  funext a
  apply Fin.ext
  match a with
  | ⟨0, _⟩ => exact congrArg BitVec.toNat (list_read d L vi fsi r)
  | ⟨1, _⟩ => rfl

/-- The lookup at an element of the task's block of result `c`. -/
theorem lookF_emb_c (vi : Buf (Elt F) (iLoc d)) (Wt : Buf (Elt F) (cLoc d)) (hpre : ∀ j, (vi j).toNat < 100001) (r k : Fin 128) :
    (lookF vi Wt : Buf (Elt F) (ocLoc d)) ((ocRowK L).view.emb (ix2 r k))
      = Wt (ix2 (⟨(vi (ix1 (n := 4096) ⟨128 * (wL L).val + r.val, by have := (wL L).isLt; omega⟩)).toNat, hpre _⟩ : Fin 100001) k) := by
  rw [ocRowK_emb']
  unfold lookF
  refine congrArg Wt ?_
  funext a
  apply Fin.ext
  match a with
  | ⟨0, _⟩ => exact Cert.Spec.rowOfWord_val_of_lt _ (hpre _)
  | ⟨1, _⟩ => rfl

end Cert.Proof.KI

end
-- ==== Proof.KI.Tile.lean ====
/-
  One subcore's task, run once at a symbolic place `L = (c, s)`: the index block is copied in, the two tables' rows are
  gathered (both gathers in flight at once, each with half of the index scratch's share), and each row scratch is
  copied out to the task's block of its result (the two copies-out complete on one semaphore and are drained together).
  What comes back is the task's block of each result at the lookup.
-/
import proofs.«206929_g83056077570062_cont_9to1c4b_839_6_alg».proof.Proof.KI.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S4096 EltTy.i32)
local notation "hV" => (Memref.whole Cert.KernelIdeal.main_arg1_scv : Memref Cert.KernelIdeal.sig Kind.scVector Space.hbm Cert.KernelIdeal.S100001x128 EltTy.f32)
local notation "cV'" => (Memref.whole Cert.KernelIdeal.main_arg2_scv : Memref Cert.KernelIdeal.sig Kind.scVector Space.hbm Cert.KernelIdeal.S100001x128 EltTy.f32)
local notation "ohV" => (Memref.whole Cert.KernelIdeal.main_v1_0_scv : Memref Cert.KernelIdeal.sig Kind.scVector Space.hbm Cert.KernelIdeal.S4096x128 EltTy.f32)
local notation "ocV" => (Memref.whole Cert.KernelIdeal.main_v1_1_scv : Memref Cert.KernelIdeal.sig Kind.scVector Space.hbm Cert.KernelIdeal.S4096x128 EltTy.f32)
local notation "sI" => (Memref.whole Cert.KernelIdeal.cc0_scratch0 : Memref Cert.KernelIdeal.sig Kind.scVector Space.vmem Cert.KernelIdeal.S128 EltTy.i32)
local notation "sH" => (Memref.whole Cert.KernelIdeal.cc0_scratch1 : Memref Cert.KernelIdeal.sig Kind.scVector Space.vmem Cert.KernelIdeal.S128x128 EltTy.f32)
local notation "sC" => (Memref.whole Cert.KernelIdeal.cc0_scratch2 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords) (vi : Buf (Elt F) (iLoc d))

set_option maxRecDepth 100000 in
set_option maxHeartbeats 4000000 in
theorem tile_body (hF : (K (F := F)).Facts) (hpre : ∀ j, (vi j).toNat < 100001) (O : CellTallies nD τ sig (HIx 1)) (W : Waits sig (HIx 1)) (hO : ∀ g, O g none = 0) :
    iprop(levAts (K (F := F)).L (K (F := F)).lev ∗ emp
        ∗ goPiece m d vi (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__dual_gather L iV (Memref.isWhole_whole _) hV (Memref.isWhole_whole _) cV' (Memref.isWhole_whole _)
            ohV (Memref.isWhole_whole _) ocV (Memref.isWhole_whole _)
            sI (Memref.isWhole_whole _) sH (Memref.isWhole_whole _) sC (Memref.isWhole_whole _) cc0_scratch3 cc0_scratch4 cc0_scratch5 cc0_scoped0)
          fun _ => iprop(tdPiece m d vi (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__dual_gather_eq_skeleton]; unfold cc0__dual_gather_skel
  rw [(K (F := F)).scopedBufs_V hF d (cV L) (jV L), SparseCore.Cfg.scopedSems0_V (Val := Elt F) d (cV L) (jV L), ownSems0_V, ownBufs_V]
  unfold goPiece
  iintro ⟨#Hlv, -, ⟨Hi, Hh, Hc, Hoh, Hoc⟩, ⟨⟨%fsi, Hsi⟩, ⟨%fsh, Hsh⟩, ⟨%fsc, Hsc⟩, Hbufs⟩, ⟨HsemG, HsemH, HsemC, HsemW, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hoh' := (Entails.of_eq (pts_ohRowK (F := F) d L _).symm) $$ Hoh
  ihave Hoc' := (Entails.of_eq (pts_ocRowK (F := F) d L _).symm) $$ Hoc
  ihave Hh' := (Entails.of_eq (pts_hV (F := F) d L _ _).symm) $$ Hh
  ihave Hc' := (Entails.of_eq (pts_cV (F := F) d L _ _).symm) $$ Hc
  ihave Hsi' := (Entails.of_eq (pts_sI (F := F) d L _).symm) $$ Hsi
  ihave Hsh' := (Entails.of_eq (pts_sH (F := F) d L _).symm) $$ Hsh
  ihave Hsc' := (Entails.of_eq (pts_sC (F := F) d L _).symm) $$ Hsc
  sl_exec
  -- both gathers read the index scratch while they are in flight: each takes half of its share
  ihave Hsi2 := (pointsTo_share (PosShare.mem_left_op_right fullShare)).1 $$ Hsi'
  icases Hsi2 with ⟨HsiL, HsiR⟩
  have hin := idx_inb (F := F) d L vi hpre fsi
  have hB : Transfers.BatchOf (V d (cV L) (jV L)) (SemLoc.dma cc0_scratch5.sem) 2 := trivial
  sl_exec
  sl_step
  -- what the two copies-out left in the task's blocks is the lookup there
  have hvh : ∀ i ∈ (ohRowK L).view.set,
      (ohRowK L).view.writes (Elt F) (m (ohLoc d)) [⟨Rect.whole S128x128, tile_body.sl.dma2 m d L vi fsi fsh hin⟩] i
        = (lookF vi (m (hLoc d)) : Buf (Elt F) (ohLoc d)) i :=
    block_congr _ _ _ _ (fun x => by
      obtain ⟨r, k, rfl⟩ : ∃ r k, x = ix2 r k := ⟨x 0, x 1, eq_ix2 x⟩
      rw [View.read_apply]
      refine (cast_eq _ _).trans ?_
      rw [lookF_emb_h d L vi _ hpre]
      unfold tile_body.sl.dma2 tile_body.sl.gather0 tile_body.sl.dma0
      exact ((congrFun (read_whole_written (F := F) cc0_scratch1 fsh _) (ix2 r k)).trans (gathered_h d L vi _ hpre fsi _ _ hin r k)).symm)
  have hvc : ∀ i ∈ (ocRowK L).view.set,
      (ocRowK L).view.writes (Elt F) (m (ocLoc d)) [⟨Rect.whole S128x128, tile_body.sl.dma3 m d L vi fsi fsc hin⟩] i
        = (lookF vi (m (cLoc d)) : Buf (Elt F) (ocLoc d)) i :=
    block_congr _ _ _ _ (fun x => by
      obtain ⟨r, k, rfl⟩ : ∃ r k, x = ix2 r k := ⟨x 0, x 1, eq_ix2 x⟩
      rw [View.read_apply]
      refine (cast_eq _ _).trans ?_
      rw [lookF_emb_c d L vi _ hpre]
      unfold tile_body.sl.dma3 tile_body.sl.gather1 tile_body.sl.dma0
      exact ((congrFun (read_whole_written (F := F) cc0_scratch2 fsc _) (ix2 r k)).trans (gathered_c d L vi _ hpre fsi _ _ hin r k)).symm)
  ihave Hoh2 := (Entails.of_eq (pointsTo_congr hvh)) $$ Hoh'
  ihave Hoc2 := (Entails.of_eq (pointsTo_congr hvc)) $$ Hoc'
  ihave Hsi3 := (pointsTo_share (PosShare.mem_left_op_right fullShare)).2 $$ [HsiL HsiR]
  · isplitl [HsiL] <;> iassumption
  unfold tdPiece
  isplitl [Hi' Hh' Hc' Hoh2 Hoc2]
  · isplitl [Hi']; · iapply (Entails.of_eq (pts_iRowK (F := F) d L _)); iexact Hi'
    isplitl [Hh']; · iapply (Entails.of_eq (pts_hV (F := F) d L _ _)); iexact Hh'
    isplitl [Hc']; · iapply (Entails.of_eq (pts_cV (F := F) d L _ _)); iexact Hc'
    isplitl [Hoh2]; · iapply (Entails.of_eq (pts_ohRowK (F := F) d L _)); iexact Hoh2
    iapply (Entails.of_eq (pts_ocRowK (F := F) d L _)); iexact Hoc2
  isplitl [Hsi3 Hsh' Hsc' Hbufs]
  · isplitl [Hsi3]; · iexists _; iapply (Entails.of_eq (pts_sI (F := F) d L _)); iexact Hsi3
    isplitl [Hsh']; · iexists _; iapply (Entails.of_eq (pts_sH (F := F) d L _)); iexact Hsh'
    isplitl [Hsc']; · iexists _; iapply (Entails.of_eq (pts_sC (F := F) d L _)); iexact Hsc'
    iexact Hbufs
  isplitl [HsemG HsemH HsemC HsemW Hsems]
  · isplitl [HsemG]; · iexact HsemG
    isplitl [HsemH]; · iexact HsemH
    isplitl [HsemC]; · iexact HsemC
    isplitl [HsemW]; · iexact HsemW
    iexact Hsems
  iexists _; isplitr
  rotate_left
  · iexact HO
  · ipureintro
    intro p hp
    rcases Finset.mem_insert.mp hp with h | hp; · exact .inr (by subst h; rfl)
    rcases Finset.mem_insert.mp hp with h | hp; · exact .inr (by subst h; rfl)
    rcases Finset.mem_insert.mp hp with h | hp; · exact .inr (by subst h; rfl)
    rcases Finset.mem_insert.mp hp with h | hp; · exact .inr (by subst h; rfl)
    rcases Finset.mem_insert.mp hp with h | hp; · exact .inr (by subst h; rfl)
    exact .inl hp

end Tile

end Cert.Proof.KI

end
-- ==== Proof.KI.Launch.lean ====
/-
  The launch: from every subcore's task to the run of the whole program.

  @main reshapes the index argument into the flat index array and starts the two SparseCores; each hands its sixteen
  subcores their pieces (block `2 s + c` of the index array and of each result, a read share of each table) and
  collects them; when both are back the thirty-two result blocks, each at the lookup, are the two results whole.
-/
import proofs.«206929_g83056077570062_cont_9to1c4b_839_6_alg».proof.Proof.KI.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sdiff_result wp_hlo_within)

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S4096 EltTy.i32)
local notation "hV" => (Memref.whole Cert.KernelIdeal.main_arg1_scv : Memref Cert.KernelIdeal.sig Kind.scVector Space.hbm Cert.KernelIdeal.S100001x128 EltTy.f32)
local notation "cV'" => (Memref.whole Cert.KernelIdeal.main_arg2_scv : Memref Cert.KernelIdeal.sig Kind.scVector Space.hbm Cert.KernelIdeal.S100001x128 EltTy.f32)
local notation "ohV" => (Memref.whole Cert.KernelIdeal.main_v1_0_scv : Memref Cert.KernelIdeal.sig Kind.scVector Space.hbm Cert.KernelIdeal.S4096x128 EltTy.f32)
local notation "ocV" => (Memref.whole Cert.KernelIdeal.main_v1_1_scv : Memref Cert.KernelIdeal.sig Kind.scVector Space.hbm Cert.KernelIdeal.S4096x128 EltTy.f32)
local notation "sI" => (Memref.whole Cert.KernelIdeal.cc0_scratch0 : Memref Cert.KernelIdeal.sig Kind.scVector Space.vmem Cert.KernelIdeal.S128 EltTy.i32)
local notation "sH" => (Memref.whole Cert.KernelIdeal.cc0_scratch1 : Memref Cert.KernelIdeal.sig Kind.scVector Space.vmem Cert.KernelIdeal.S128x128 EltTy.f32)
local notation "sC" => (Memref.whole Cert.KernelIdeal.cc0_scratch2 : Memref Cert.KernelIdeal.sig Kind.scVector Space.vmem Cert.KernelIdeal.S128x128 EltTy.f32)

variable (m : (ℓ : Loc nD τ sig) → Buf (Elt F) ℓ) (ρ : Dev nD → PrngReg)
variable [FloatOps F]

/-! ## The tile obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__dual_gather (coordsV c s)
          iV (Memref.isWhole_whole _) hV (Memref.isWhole_whole _) cV' (Memref.isWhole_whole _) ohV (Memref.isWhole_whole _) ocV (Memref.isWhole_whole _)
          sI (Memref.isWhole_whole _) sH (Memref.isWhole_whole _) sC (Memref.isWhole_whole _) cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 100000 in
theorem tileObl (vi : (d : Dev nD) → Buf (Elt F) (iLoc d)) (hF : (K (F := F)).Facts) (hpre : ∀ d j, (vi d j).toNat < 100001) :
    (K (F := F)).TileObl (D (F := F)) 𝒱 (P m vi) v₀ 0 := by
  intro d c i O W hO _ _
  simp only [show (P m vi).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) (vi d) hF (hpre d) O W hO).trans (wp_mono frame _ _ fun _ => obl_post)

/-! ## A SparseCore's pieces are its tasks' -/

theorem vecSplit (vi : (d : Dev nD) → Buf (Elt F) (iLoc d)) : (K (F := F)).VecSplit' (P m vi) 0 := by
  intro d c
  show (bigSep Finset.univ fun i : Fin ((K (F := F)).nSub 0) => goPiece m d (vi d) (wid (Fin.cast nCore_zero c) (Fin.cast nSub_zero i)))
    ⊢ |={Set.univ}=> iprop((bigSep Finset.univ fun i : Fin ((K (F := F)).nSub 0) => goPiece m d (vi d) (wid (Fin.cast nCore_zero c) (Fin.cast nSub_zero i)))
      ∗ ((bigSep Finset.univ fun i : Fin ((K (F := F)).nSub 0) => tdPiece m d (vi d) (wid (Fin.cast nCore_zero c) (Fin.cast nSub_zero i)))
          -∗ (bigSep Finset.univ fun i : Fin ((K (F := F)).nSub 0) => tdPiece m d (vi d) (wid (Fin.cast nCore_zero c) (Fin.cast nSub_zero i)))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (vi : (d : Dev nD) → Buf (Elt F) (iLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m vi).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m vi).x q thr) = bigSep Finset.univ fun _ => iprop(emp) from
    bigSep_congr fun _ _ => bigSep_univ_of_subsingleton (0 : Fin 1), bigSep_emp']
  iempintro

/-! ## Thirty-two blocks, thirty-two read shares -/

omit [FloatOps F] in
theorem iRowSet_eq (w : Fin 32) : iRowSet w = (irow w).set := by
  show ((View.whole (main_v0_scv : Ref sig .scVector)).slice (irow w)).set = _
  rw [View.set_slice]; exact Finset.map_refl
omit [FloatOps F] in
theorem oRowSet_eq (w : Fin 32) : oRowSet w = (orow w).set := by
  show ((View.whole (main_v1_0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
/-- The index array whole is its thirty-two blocks. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem ohPts_rows (d : Dev nD) (f : Buf (Elt F) (ohLoc d)) :
    (ohLoc d ↦{fullShare} f : sProp 𝕄) = bigSep Finset.univ fun w : Fin 32 => ohLoc d ↦[oRowSet w]{fullShare} f := by
  rw [← pointsTo_biUnion Finset.univ (ℓ := ohLoc d) oRowSet orows_disjoint, orows_cover]; try rfl
omit [FloatOps F] in
theorem ocPts_rows (d : Dev nD) (f : Buf (Elt F) (ocLoc d)) :
    (ocLoc d ↦{fullShare} f : sProp 𝕄) = bigSep Finset.univ fun w : Fin 32 => ocLoc d ↦[oRowSet w]{fullShare} f := by
  rw [← pointsTo_biUnion Finset.univ (ℓ := ocLoc d) oRowSet orows_disjoint, orows_cover]; try rfl

/-- Task `2 s + c` of subcore `s` of SparseCore `c`: the thirty-two tasks, once each. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    refine Prod.ext (Fin.ext ?_) (Fin.ext ?_)
    · show (2 * i.val + c.val) % 2 = c.val
      have := c.isLt; omega
    · show (2 * i.val + c.val) / 2 = i.val
      have := c.isLt; omega
  right_inv w := by
    apply Fin.ext
    show 2 * (w.val / 2) + w.val % 2 = w.val
    omega

omit [FloatOps F] in
theorem bigSep_tasks (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i))) = bigSep Finset.univ Φ := by
  rw [bigSep_univ_equiv widEquiv Φ, bigSep_univ_prod]
  rfl

theorem st_all (vi : (d : Dev nD) → Buf (Elt F) (iLoc d)) (d : Dev nD) :
    (bigSep Finset.univ fun c : Fin ((K (F := F)).nCore 0) => (P m vi).st 0 d c)
      = iprop((bigSep Finset.univ fun w : Fin 32 => iLoc d ↦[iRowSet w]{fullShare} vi d)
        ∗ (bigSep Finset.univ fun w : Fin 32 => hLoc d ↦{tq w} m (hLoc d))
        ∗ (bigSep Finset.univ fun w : Fin 32 => cLoc d ↦{tq w} m (cLoc d))
        ∗ (bigSep Finset.univ fun w : Fin 32 => ohLoc d ↦[oRowSet w]{fullShare} m (ohLoc d))
        ∗ (bigSep Finset.univ fun w : Fin 32 => ocLoc d ↦[oRowSet w]{fullShare} m (ocLoc d))) := by
  refine (bigSep_tasks (F := F) (fun w => goPiece m d (vi d) w)).trans ?_
  unfold goPiece
  rw [bigSep_sep', bigSep_sep', bigSep_sep', bigSep_sep']

theorem dn_all (vi : (d : Dev nD) → Buf (Elt F) (iLoc d)) (d : Dev nD) :
    (bigSep Finset.univ fun c : Fin ((K (F := F)).nCore 0) => (P m vi).dn 0 d c)
      = iprop((bigSep Finset.univ fun w : Fin 32 => iLoc d ↦[iRowSet w]{fullShare} vi d)
        ∗ (bigSep Finset.univ fun w : Fin 32 => hLoc d ↦{tq w} m (hLoc d))
        ∗ (bigSep Finset.univ fun w : Fin 32 => cLoc d ↦{tq w} m (cLoc d))
        ∗ (bigSep Finset.univ fun w : Fin 32 => ohLoc d ↦[oRowSet w]{fullShare} (lookF (vi d) (m (hLoc d)) : Buf (Elt F) (ohLoc d)))
        ∗ (bigSep Finset.univ fun w : Fin 32 => ocLoc d ↦[oRowSet w]{fullShare} (lookF (vi d) (m (cLoc d)) : Buf (Elt F) (ocLoc d)))) := by
  refine (bigSep_tasks (F := F) (fun w => tdPiece m d (vi d) w)).trans ?_
  unfold tdPiece
  rw [bigSep_sep', bigSep_sep', bigSep_sep', bigSep_sep']

/-! ## @main on the TensorCore -/

abbrev aLoc (d : Dev nD) : Loc nD τ sig := (SparseCore.T d).loc main_arg0
abbrev a' : DevRef τ sig := Proc.devRef .tc (main_arg0 : Ref sig .tc)
abbrev i' : DevRef τ sig := Proc.devRef .tc (main_v0 : Ref sig .tc)
/-- @main's one host operation: the index argument, 4096 × 1 × 1, read as a flat array of 4096. -/
abbrev opR : HloOp τ sig (Elt F) := StableHlo.reshape main_arg0 main_v0 rfl shapeCasts_S4096x1x1_S4096
abbrev S2 : Finset (DevRef τ sig) := {a', i'}

def V0 (d : Dev nD) : Valuation τ sig (Elt F) := fun b => m (d, b)
/-- The flat index array as the reshape leaves it. -/
def vI (d : Dev nD) : Buf (Elt F) (iLoc d) := (opR (F := F)).result (V0 m d) i'

omit [FloatOps F] in
theorem held_S2 (d : Dev nD) (W : Valuation τ sig (Elt F)) :
    (held (T d) S2 W : sProp 𝕄) = iprop((aLoc d ↦{fullShare} W a') ∗ (iLoc d ↦{fullShare} W i')) := by
  unfold held S2
  rw [SparseCore.bigSep_insert' (by decide), bigSep_singleton]

theorem held_R (d : Dev nD) :
    (held (T d) S2 ((opR (F := F)).result (V0 m d)) : sProp 𝕄) = iprop((aLoc d ↦{fullShare} m (aLoc d)) ∗ (iLoc d ↦{fullShare} vI m d)) := by
  rw [held_S2, (opR (F := F)).result_of_not_mem (V0 m d) (b := a') (show a' ∉ ({i'} : Finset (DevRef τ sig)) by decide)]
  rfl

theorem hR : (opR (F := F)).bufs ⊆ S2 := show ({a', i'} : Finset (DevRef τ sig)) ⊆ S2 by decide

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (hLoc d ↦{fullShare} W main_arg1) ∗ (cLoc d ↦{fullShare} W main_arg2)
      ∗ (iLoc d ↦{fullShare} W main_v0) ∗ (ohLoc d ↦{fullShare} W main_v1_0) ∗ (ocLoc d ↦{fullShare} W main_v1_1)) := by
  unfold unscopedBufs
  rw [show (Finset.univ.filter fun b : Ref sig .tc => ¬ b.isScoped) = {main_arg0, main_arg1, main_arg2, main_v0, main_v1_0, main_v1_1} by decide,
    SparseCore.bigSep_insert' (by decide), SparseCore.bigSep_insert' (by decide), SparseCore.bigSep_insert' (by decide),
    SparseCore.bigSep_insert' (by decide), SparseCore.bigSep_insert' (by decide), bigSep_singleton]

/-- What @main leaves the claim: the three arguments as launched, the two results at the lookup. -/
abbrev FIN (d : Dev nD) : sProp 𝕄 :=
  iprop((aLoc d ↦{fullShare} m (aLoc d)) ∗ (hLoc d ↦{fullShare} m (hLoc d)) ∗ (cLoc d ↦{fullShare} m (cLoc d))
    ∗ (ohLoc d ↦{fullShare} (lookF (vI m d) (m (hLoc d)) : Buf (Elt F) (ohLoc d)))
    ∗ (ocLoc d ↦{fullShare} (lookF (vI m d) (m (cLoc d)) : Buf (Elt F) (ocLoc d))))

set_option maxRecDepth 100000 in
/-- @main on device `d`'s TensorCore: the reshape, then the one call — every array dealt out block by block and
    share by share, and collected again. -/
theorem hmain (κ : GSem nD τ sig → ℕ) (d : Dev nD) :
    iprop((K (F := F)).ctx EH (P m (vI m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hh, Hc, Hi, Hoh, Hoc⟩, -, -⟩, -⟩
  iapply (wp_hlo_within 𝒱 (SparseCore.T d) none Set.univ (op := opR) (S := S2) hR (V := V0 m d)) $$ [Hb Ha Hi]
  · isplitl [Hb]; · iexact Hb
    rw [held_S2]
    isplitl [Ha]; · iexact Ha
    iexact Hi
  iintro ⟨Hb, Hheld⟩
  ihave Hh2 := (Entails.of_eq (held_R (F := F) m d)) $$ Hheld
  icases Hh2 with ⟨Ha, Hi⟩
  rw [wp_ret]; imodintro
  -- deal the arrays out: blocks of the index array and of the results, read shares of the tables
  ihave Hi' := (Entails.of_eq (iPts_rows (F := F) d _)) $$ Hi
  ihave Hoh' := (Entails.of_eq (ohPts_rows (F := F) d _)) $$ Hoh
  ihave Hoc' := (Entails.of_eq (ocPts_rows (F := F) d _)) $$ Hoc
  ihave Hh' := (Transfers.pointsTo_toks_split (ℓ := hLoc d) (S := Finset.univ) (f := m (hLoc d)) fullShare 32) $$ Hh
  icases Hh' with ⟨Hhd, Hht⟩
  ihave Hc' := (Transfers.pointsTo_toks_split (ℓ := cLoc d) (S := Finset.univ) (f := m (cLoc d)) fullShare 32) $$ Hc
  icases Hc' with ⟨Hcd, Hct⟩
  iapply ((K (F := F)).wp_run (D (F := F)) 𝒱 (EH := EH) (P := P m (vI m)) κ d 0) $$ [Hst Hi' Hht Hct Hoh' Hoc' Ha Hhd Hcd]
  isplitr; · iexact Hctx
  isplitl [Hst]; · iexact Hst
  isplitl [Hi' Hht Hct Hoh' Hoc']
  · rw [st_all]
    isplitl [Hi']; · iexact Hi'
    isplitl [Hht]; · iexact Hht
    isplitl [Hct]; · iexact Hct
    isplitl [Hoh']; · iexact Hoh'
    iexact Hoc'
  iintro ⟨Hst, Hdn⟩
  ihave Hdn' := (Entails.of_eq (dn_all (F := F) m (vI m) d)) $$ Hdn
  icases Hdn' with ⟨-, Hht, Hct, Hoh', Hoc'⟩
  -- and collect them: the tables' shares, the results' blocks (each at the lookup)
  ihave Hh := (Transfers.pointsTo_toks_join (ℓ := hLoc d) (S := Finset.univ) (f := m (hLoc d)) fullShare 32) $$ [Hhd Hht]
  · isplitl [Hhd] <;> iassumption
  ihave Hc := (Transfers.pointsTo_toks_join (ℓ := cLoc d) (S := Finset.univ) (f := m (cLoc d)) fullShare 32) $$ [Hcd Hct]
  · isplitl [Hcd] <;> iassumption
  ihave Hoh := (Entails.of_eq (ohPts_rows (F := F) d _).symm) $$ Hoh'
  ihave Hoc := (Entails.of_eq (ocPts_rows (F := F) d _).symm) $$ Hoc'
  imodintro
  isplitl [Hst]; · iexact Hst
  isplitl [Ha]; · iexact Ha
  isplitl [Hh]; · iexact Hh
  isplitl [Hc]; · iexact Hc
  isplitl [Hoh]; · iexact Hoh
  iexact Hoc

/-! ## What the final memory holds -/

def fq (d : Dev nD) (s' : Phys nD τ sig (Elt F)) : Prop :=
  s'.mem.mem (aLoc d) = m (aLoc d) ∧ s'.mem.mem (hLoc d) = m (hLoc d) ∧ s'.mem.mem (cLoc d) = m (cLoc d)
    ∧ s'.mem.mem (ohLoc d) = (lookF (vI m d) (m (hLoc d)) : Buf (Elt F) (ohLoc d))
    ∧ s'.mem.mem (ocLoc d) = (lookF (vI m d) (m (cLoc d)) : Buf (Elt F) (ocLoc d))

set_option maxRecDepth 100000 in
theorem hfin (d : Dev nD) (s' : Phys nD τ sig (Elt F)) : iprop(FIN m d ∗ SI s') ⊢ (⌜fq m d s'⌝ : sProp 𝕄) := by
  iintro ⟨⟨Ha, Hh, Hc, Hoh, Hoc⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h2, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h3, HSI, -⟩
  ihave H := (persistent_entails_right (SI_pointsTo_agree (st := s') (ℓ := ohLoc d) (I := Finset.univ) (q := fullShare)
    (f := (lookF (vI m d) (m (hLoc d)) : Buf (Elt F) (ohLoc d))))) $$ [HSI Hoh]
  · isplitl [HSI] <;> iassumption
  icases H with ⟨%h4, HSI, -⟩
  ihave H := (SI_pointsTo_agree (st := s') (ℓ := ocLoc d) (I := Finset.univ) (q := fullShare)
    (f := (lookF (vI m d) (m (cLoc d)) : Buf (Elt F) (ocLoc d)))) $$ [HSI Hoc]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (aLoc c) = m (aLoc c) ∧ r.2.mem (hLoc c) = m (hLoc c) ∧ r.2.mem (cLoc c) = m (cLoc c)
    ∧ r.2.mem (ohLoc c) = (lookF (vI m c) (m (hLoc c)) : Buf (Elt F) (ohLoc c))
    ∧ r.2.mem (ocLoc c) = (lookF (vI m c) (m (cLoc c)) : Buf (Elt F) (ocLoc c))

/-- Every weakly fair execution of the device's threads ends, nothing faulting, with the arguments unchanged and each
    result at the lookup of the flat index array in its table — as soon as every index word names a table row. -/
theorem run_main [∀ e, Nonempty (Elt F e)] (hpre : ∀ d j, (vI m d j).toNat < 100001) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (vI m)) facts v₀
    (fun q hq => match q with | 0 => nomatch hq)
    (fun q _ => match q with | 0 => tileObl m (vI m) facts hpre)
    (fun q _ => match q with | 0 => SparseCore.Cfg.VecSplit.of_plain (vecSplit m (vI m)))
    m ρ main (fun _ => iprop(emp)) (FIN m) (u₀ (F := F)) (sep_elim_left.trans (hu₀ m (vI m))) (hmain m ρ) (fq m) (hfin m) (QC m) (fun _ h => h)

end Cert.Proof.KI

end
-- ==== Proof.RefPre.lean ====
/-
  What the precondition says of the index words. The precondition is a conjunction of three statements, each a
  conjunction over all entries of an array reduced to a single bit; the last one says that every index word,
  read as a signed integer, lies between 0 and 100000. Read as a natural number such a word is at most 100000.
-/
import proofs.«206929_g83056077570062_cont_9to1c4b_839_6_alg».proof.Proof.Gen.Pre_input_domain
import Idealize.ShloMosaic.Lib.ReduceAll
import Idealize.ShloMosaic.Lib.Affine

namespace Cert.Proof.RefSide

open Idealize.ShloMosaic

/-- The shape with no axes has exactly one index. -/
instance subsingleton_scalar_idx : Subsingleton Cert.Pre_input_domain.S_.Idx :=
  ⟨fun a b => funext fun d => d.elim0⟩

/-- A 32-bit word that is at least 0 and at most 100000 as a signed integer is at most 100000 as a natural number. -/
theorem toNat_le_of_signed_bounds (v : BitVec 32)
    (h0 : IntOp.cmpi .sge v 0#32 = 1#1) (h1 : IntOp.cmpi .sle v 100000#32 = 1#1) : v.toNat ≤ 100000 := by
  rw [IntOp.cmpi_sge] at h0
  rw [IntOp.cmpi_sle] at h1
  rw [show (0#32 : BitVec 32).toInt = 0 from by decide] at h0
  rw [show (100000#32 : BitVec 32).toInt = 100000 from by decide] at h1
  rw [BitVec.toInt_eq_toNat_cond] at h0 h1
  split at h0 <;> omega

/-- Under the precondition every index word is at most 100000. -/
theorem idx_le_of_pre {F : FTy → Type} [FloatOps F] (i : IVec Cert.Pre_input_domain.S4096x1x1 32)
    (a b : FVec F Cert.Pre_input_domain.S100001x128 .f32)
    (h : Cert.Pre_input_domain.fn (F := F) i a b = fun _ => 1#1) : ∀ j, (i j).toNat ≤ 100000 := by
  intro j
  have e := congrFun h (fun d => d.elim0)
  simp only [Cert.Pre_input_domain.fn] at e
  -- the outer conjunction: its second half is the statement about the index words
  have e14 := (IntOp.andi_eq_one.1 e).2
  -- a conjunction over all entries that holds, holds at each entry
  have e13 := Host.reduce_andi_all _ _ _ _ _ e14 j
  obtain ⟨h0, h1⟩ := IntOp.andi_eq_one.1 e13
  exact toNat_le_of_signed_bounds (i j) h0 h1

end Cert.Proof.RefSide
-- ==== Proof.KI.Bridge.lean ====
/-
  From the certificate's precondition to what the run asks, and from the run's flat lookup to the shared one: the
  reshape lays the 4096 × 1 × 1 index argument out flat in the same order, so word `r` of the flat array is word
  `(r, 0, 0)` of the argument, and the lookup over the flat array is the lookup over the argument.
-/
import proofs.«206929_g83056077570062_cont_9to1c4b_839_6_alg».proof.Proof.KI.Launch
import proofs.«206929_g83056077570062_cont_9to1c4b_839_6_alg».proof.Proof.RefPre
import proofs.«206929_g83056077570062_cont_9to1c4b_839_6_alg».proof.Proof.Gen.Pre_input_domain
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

variable (m : (ℓ : Loc nD τ sig) → Buf (Elt F) ℓ)
variable [FloatOps F]

/-- Word `r` of the flat index array is word `(r, 0, 0)` of the index argument. -/
theorem vI_apply (d : Dev nD) (r : Fin 4096) :
    vI m d (ix1 r) = m (aLoc d) (ix3 r (0 : Fin 1) (0 : Fin 1)) := by
  unfold vI
  rw [StableHlo.reshape_result]
  show shapeCast S4096 (m (aLoc d)) shapeCasts_S4096x1x1_S4096 (ix1 r) = _
  exact shapeCast_apply _ _ (ix1 r) (ix3 r 0 0) (by rw [Shape.rowMajor_val_three, Shape.rowMajor_val_one]; simp)

/-- The lookup over the flat index array is the lookup over the index argument. -/
theorem lookF_vI {α : Type} (d : Dev nD) (W : S100001x128.Idx → α) :
    lookF (vI m d) W = Cert.Spec.lookup (m (aLoc d)) W := by
  funext j
  exact congrArg (fun w => W (ix2 (Cert.Spec.rowOfWord w) (n1 := 128) (j 1))) (vI_apply m d (j 0))

/-- Under the precondition (every index word between 0 and 100000) every word of the flat array names a table row. -/
theorem hpre_of_pre (h : ∀ c : Dev nD, Cert.Pre_input_domain.fn (F := F) (m (aLoc c)) (m (hLoc c)) (m (cLoc c)) = fun _ => 1#1) :
    ∀ d j, (vI m d j).toNat < 100001 := by
  intro d j
  have e : vI m d j = m (aLoc d) (ix3 (j 0) (0 : Fin 1) (0 : Fin 1)) := (congrArg (vI m d) (eq_ix1 (n := 4096) j)).trans (vI_apply m d (j 0))
  rw [e]
  exact Nat.lt_succ_of_le (Cert.Proof.RefSide.idx_le_of_pre _ _ _ (h d) _)

end Cert.Proof.KI

end
-- ==== Proof.KB.Setup.lean ====
/-
  The lookup kernel on the SparseCores: what each of the 32 vector subcores is handed, what it hands back, and the
  run of one subcore's task at a symbolic place.

  Subcore `s` of SparseCore `c` is task `w = 2 s + c`. It owns rows `[128 w, 128 w + 128)` of the flat index array
  and of both results, reads both tables (each through a read share of its own), copies its 128 indices into its
  index scratch, gathers the rows they name out of each table into a row scratch, and copies each row scratch out to
  its block of the matching result. So block `w` of result `h` ends as rows `idx[128 w + k]` of table `h`, and the
  same for `c`: the lookup, block by block.
-/
import proofs.«206929_g83056077570062_cont_9to1c4b_839_6_alg».proof.Defs
import proofs.«206929_g83056077570062_cont_9to1c4b_839_6_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«206929_g83056077570062_cont_9to1c4b_839_6_alg».proof.Proof.Gen.Kernel
import proofs.«206929_g83056077570062_cont_9to1c4b_839_6_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The flat index array (the reshaped argument), the two tables, the two results, as locations of device `d`. -/
abbrev iLoc (d : Dev nD) : Loc nD τ sig := (SparseCore.T d).loc main_v0
abbrev hLoc (d : Dev nD) : Loc nD τ sig := (SparseCore.T d).loc main_arg1
abbrev cLoc (d : Dev nD) : Loc nD τ sig := (SparseCore.T d).loc main_arg2
abbrev ohLoc (d : Dev nD) : Loc nD τ sig := (SparseCore.T d).loc main_v1_0
abbrev ocLoc (d : Dev nD) : Loc nD τ sig := (SparseCore.T d).loc main_v1_1

local notation "iV" => (Memref.whole Cert.Kernel.main_v0_scv : Memref Cert.Kernel.sig Kind.scVector Space.hbm Cert.Kernel.S4096 EltTy.i32)
local notation "hV" => (Memref.whole Cert.Kernel.main_arg1_scv : Memref Cert.Kernel.sig Kind.scVector Space.hbm Cert.Kernel.S100001x128 EltTy.f32)
local notation "cV'" => (Memref.whole Cert.Kernel.main_arg2_scv : Memref Cert.Kernel.sig Kind.scVector Space.hbm Cert.Kernel.S100001x128 EltTy.f32)
local notation "ohV" => (Memref.whole Cert.Kernel.main_v1_0_scv : Memref Cert.Kernel.sig Kind.scVector Space.hbm Cert.Kernel.S4096x128 EltTy.f32)
local notation "ocV" => (Memref.whole Cert.Kernel.main_v1_1_scv : Memref Cert.Kernel.sig Kind.scVector Space.hbm Cert.Kernel.S4096x128 EltTy.f32)
local notation "sI" => (Memref.whole Cert.Kernel.cc0_scratch0 : Memref Cert.Kernel.sig Kind.scVector Space.vmem Cert.Kernel.S128 EltTy.i32)
local notation "sH" => (Memref.whole Cert.Kernel.cc0_scratch1 : Memref Cert.Kernel.sig Kind.scVector Space.vmem Cert.Kernel.S128x128 EltTy.f32)
local notation "sC" => (Memref.whole Cert.Kernel.cc0_scratch2 : Memref Cert.Kernel.sig Kind.scVector Space.vmem Cert.Kernel.S128x128 EltTy.f32)

/-- Thirty-two tasks, each a block of 128 rows of the index array and of each result. -/
theorem idiv : 32 ∣ S4096.size 0 := ⟨128, rfl⟩
theorem odiv : 32 ∣ S4096x128.size 0 := ⟨128, rfl⟩
abbrev irow (w : Fin 32) : Rect S4096 := Rect.part (s := S4096) (a₀ := 0) idiv w
abbrev orow (w : Fin 32) : Rect S4096x128 := Rect.part (s := S4096x128) (a₀ := 0) odiv w
abbrev iRowSet (w : Fin 32) : Finset S4096.Idx := ((iV).view.slice (irow w)).set
abbrev oRowSet (w : Fin 32) : Finset S4096x128.Idx := ((ohV).view.slice (orow w)).set

/-- Task `w`'s read share of a table: one of thirty-two tokens cut off the full share. -/
abbrev tq (w : Fin 32) : PosShare TreeShare := Transfers.shareTok fullShare 32 w

/-- The task of subcore `i` of SparseCore `c`. -/
def wid (c : Fin 2) (i : Fin 16) : Fin 32 := ⟨2 * i.val + c.val, by omega⟩

/-- The lookup over the FLAT index array: entry `(r, k)` is entry `(idx[r], k)` of the table. -/
def lookF {α : Type} (vi : S4096.Idx → BitVec 32) (W : S100001x128.Idx → α) : S4096x128.Idx → α :=
  fun j => W (ValueIdx.ix2 (Cert.Spec.rowOfWord (vi (ValueIdx.ix1 (n := 4096) (j 0)))) (n1 := 128) (j 1))

variable [FloatOps F]

/-! ## What the handshakes carry -/

section Pieces
variable (d : Dev nD) (vi : Buf (Elt F) (iLoc d))

/-- What task `w` is handed: its block of the index array, a read share of each table, its block of each result. -/
def goPiece (w : Fin 32) : sProp 𝕄 :=
  iprop((iLoc d ↦[iRowSet w]{fullShare} vi) ∗ (hLoc d ↦{tq w} m (hLoc d)) ∗ (cLoc d ↦{tq w} m (cLoc d))
    ∗ (ohLoc d ↦[oRowSet w]{fullShare} m (ohLoc d)) ∗ (ocLoc d ↦[oRowSet w]{fullShare} m (ocLoc d)))

/-- What it hands back: the same, each result block now the looked-up rows. -/
def tdPiece (w : Fin 32) : sProp 𝕄 :=
  iprop((iLoc d ↦[iRowSet w]{fullShare} vi) ∗ (hLoc d ↦{tq w} m (hLoc d)) ∗ (cLoc d ↦{tq w} m (cLoc d))
    ∗ (ohLoc d ↦[oRowSet w]{fullShare} (lookF vi (m (hLoc d)) : Buf (Elt F) (ohLoc d)))
    ∗ (ocLoc d ↦[oRowSet w]{fullShare} (lookF vi (m (cLoc d)) : Buf (Elt F) (ocLoc d))))

end Pieces

/-- The one call: SparseCore `c` takes its sixteen tasks' pieces and brings them back; task `(c, i)` takes piece `2 i + c`. -/
def P (vi : (d : Dev nD) → Buf (Elt F) (iLoc d)) : (K (F := F)).Pay (nD := nD) (Val := Elt F) (Name := ℕ) (U := UU) where
  st := fun q d c => match q with
    | 0 => bigSep Finset.univ fun i : Fin ((K (F := F)).nSub 0) => goPiece m d (vi d) (wid (Fin.cast nCore_zero c) (Fin.cast nSub_zero i))
  dn := fun q d c => match q with
    | 0 => bigSep Finset.univ fun i : Fin ((K (F := F)).nSub 0) => tdPiece m d (vi d) (wid (Fin.cast nCore_zero c) (Fin.cast nSub_zero i))
  go := fun q d c i => match q with | 0 => goPiece m d (vi d) (wid (Fin.cast nCore_zero c) (Fin.cast nSub_zero i))
  td := fun q d c i => match q with | 0 => tdPiece m d (vi d) (wid (Fin.cast nCore_zero c) (Fin.cast nSub_zero i))
  x := fun _ _ => iprop(emp)

instance goPiece_storable (d : Dev nD) (vi : Buf (Elt F) (iLoc d)) (w : Fin 32) : BI.Storable (upEmb : UEmb _ 𝕄) (goPiece m d vi w) := by
  unfold goPiece; infer_instance
instance tdPiece_storable (d : Dev nD) (vi : Buf (Elt F) (iLoc d)) (w : Fin 32) : BI.Storable (upEmb : UEmb _ 𝕄) (tdPiece m d vi w) := by
  unfold tdPiece; infer_instance

instance P_storable (vi : (d : Dev nD) → Buf (Elt F) (iLoc d)) : (P (F := F) m vi).IsStorable where
  st q d c := match q with
    | 0 => (inferInstance : BI.Storable (upEmb : UEmb _ 𝕄)
        (bigSep Finset.univ fun i : Fin ((K (F := F)).nSub 0) => goPiece m d (vi d) (wid (Fin.cast nCore_zero c) (Fin.cast nSub_zero i))))
  dn q d c := match q with
    | 0 => (inferInstance : BI.Storable (upEmb : UEmb _ 𝕄)
        (bigSep Finset.univ fun i : Fin ((K (F := F)).nSub 0) => tdPiece m d (vi d) (wid (Fin.cast nCore_zero c) (Fin.cast nSub_zero i))))
  go q d c i := match q with
    | 0 => (inferInstance : BI.Storable (upEmb : UEmb _ 𝕄) (goPiece m d (vi d) (wid (Fin.cast nCore_zero c) (Fin.cast nSub_zero i))))
  td q d c i := match q with
    | 0 => (inferInstance : BI.Storable (upEmb : UEmb _ 𝕄) (tdPiece m d (vi d) (wid (Fin.cast nCore_zero c) (Fin.cast nSub_zero i))))

end Cert.Proof.KB

end
-- ==== Proof.KB.Geom.lean ====
/-
  The geometry of one subcore's task at a symbolic place `L = (c, s)`: its task number, its blocks of the index array
  and of the results as the task addresses them, its semaphores and scratch buffers among the subcore's own, and the
  fact that the words it copies into its index scratch name table rows.
-/
import proofs.«206929_g83056077570062_cont_9to1c4b_839_6_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S4096 EltTy.i32)
local notation "hV" => (Memref.whole Cert.Kernel.main_arg1_scv : Memref Cert.Kernel.sig Kind.scVector Space.hbm Cert.Kernel.S100001x128 EltTy.f32)
local notation "cV'" => (Memref.whole Cert.Kernel.main_arg2_scv : Memref Cert.Kernel.sig Kind.scVector Space.hbm Cert.Kernel.S100001x128 EltTy.f32)
local notation "ohV" => (Memref.whole Cert.Kernel.main_v1_0_scv : Memref Cert.Kernel.sig Kind.scVector Space.hbm Cert.Kernel.S4096x128 EltTy.f32)
local notation "ocV" => (Memref.whole Cert.Kernel.main_v1_1_scv : Memref Cert.Kernel.sig Kind.scVector Space.hbm Cert.Kernel.S4096x128 EltTy.f32)
local notation "sI" => (Memref.whole Cert.Kernel.cc0_scratch0 : Memref Cert.Kernel.sig Kind.scVector Space.vmem Cert.Kernel.S128 EltTy.i32)
local notation "sH" => (Memref.whole Cert.Kernel.cc0_scratch1 : Memref Cert.Kernel.sig Kind.scVector Space.vmem Cert.Kernel.S128x128 EltTy.f32)
local notation "sC" => (Memref.whole Cert.Kernel.cc0_scratch2 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords) (vi : Buf (Elt F) (iLoc d))

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The task at place `L`. -/
abbrev wL (L : grid0.Coords) : Fin 32 :=
  ⟨2 * (L 1).val + (L 0).val, by have h0 : (L 0).val < 2 := (L 0).isLt; have h1 : (L 1).val < 16 := (L 1).isLt; omega⟩

abbrev irowK (L : grid0.Coords) : Rect S4096 := Rect.unit (s := S4096) (k0_off1 L) S128.size (k0_off1_inb L)
abbrev orowK (L : grid0.Coords) : Rect S4096x128 := Rect.unit (s := S4096x128) (k0_off2 L) S128x128.size (k0_off2_inb L)
/-- The task's block of the index array and of each result, and a table whole, as the task addresses them. -/
abbrev iRowK (L : grid0.Coords) : Memref sig .scVector .hbm S128 .i32 := (iV).slice (irowK L) (fun _ => rfl)
abbrev ohRowK (L : grid0.Coords) : Memref sig .scVector .hbm S128x128 .f32 := (ohV).slice (orowK L) (fun _ => rfl)
abbrev ocRowK (L : grid0.Coords) : Memref sig .scVector .hbm S128x128 .f32 := (ocV).slice (orowK L) (fun _ => rfl)

omit [FloatOps F] in
theorem irowK_eq : irowK L = irow (wL L) := by
  unfold irowK irow Rect.part Rect.block
  congr 1 <;> funext a
  · rw [k0_off1_eq]
    match a with
    | 0 => simp [Shape.partIx, Shape.partSize]; omega
  · match a with
    | 0 => simp [Shape.partSize]
omit [FloatOps F] in
theorem orowK_eq : orowK L = orow (wL L) := by
  unfold orowK orow Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_ohRowK : (ohRowK L).view.set = oRowSet (wL L) := by
  show ((ohV).view.slice (orowK L)).set = ((ohV).view.slice (orow (wL L))).set
  exact orowK_eq L ▸ rfl

abbrev cGcell (d : Dev nD) (c : Fin τ.nSC) (i : Fin τ.nSub) : GSem nD τ sig := (V d c i, .dma cc0_scoped0.sem)
abbrev cHcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scratch4.sem)
abbrev cWcell (d : Dev nD) (c : Fin τ.nSC) (i : Fin τ.nSub) : GSem nD τ sig := (V d c i, .dma cc0_scratch5.sem)

omit [FloatOps F] in
/-- The subcore's four DMA semaphores are among its own cells: they are them, at zero, and the rest. -/
theorem ownSems0_V :
    (ownSems0 (V d (cV L) (jV L)) : sProp 𝕄)
      = iprop(semVal (cGcell d (cV L) (jV L)) 0 ∗ semVal (cHcell d (cV L) (jV L)) 0 ∗ semVal (cCcell d (cV L) (jV L)) 0 ∗ semVal (cWcell d (cV L) (jV L)) 0
          ∗ bigSep (((((ownCells (V d (cV L) (jV L))).erase (cGcell d (cV L) (jV L))).erase (cHcell d (cV L) (jV L))).erase (cCcell d (cV L) (jV L))).erase (cWcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scoped0.sem : SemLoc sig).isScoped .scVector = true; decide⟩),
    SparseCore.bigSep_erase' (Finset.mem_erase.mpr ⟨by simp [cGcell, cHcell]; decide, (mem_ownCells (g := cHcell d (cV L) (jV L))).mpr ⟨rfl, by
      show (SemLoc.dma cc0_scratch3.sem : SemLoc sig).isScoped .scVector = true; decide⟩⟩),
    SparseCore.bigSep_erase' (Finset.mem_erase.mpr ⟨by simp [cHcell, cCcell]; decide, Finset.mem_erase.mpr ⟨by simp [cGcell, cCcell]; decide,
      (mem_ownCells (g := cCcell d (cV L) (jV L))).mpr ⟨rfl, by show (SemLoc.dma cc0_scratch4.sem : SemLoc sig).isScoped .scVector = true; decide⟩⟩⟩),
    SparseCore.bigSep_erase' (Finset.mem_erase.mpr ⟨by simp [cCcell, cWcell]; decide, Finset.mem_erase.mpr ⟨by simp [cHcell, cWcell]; decide,
      Finset.mem_erase.mpr ⟨by simp [cGcell, cWcell]; decide,
      (mem_ownCells (g := cWcell d (cV L) (jV L))).mpr ⟨rfl, by show (SemLoc.dma cc0_scratch5.sem : SemLoc sig).isScoped .scVector = true; decide⟩⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_ohRowK (f : Buf (Elt F) (ohLoc d)) :
    ((ohRowK L).view.loc (V d (cV L) (jV L)) ↦[(ohRowK L).view.set]{fullShare} f : sProp 𝕄) = ohLoc d ↦[oRowSet (wL L)]{fullShare} f := by
  rw [set_ohRowK]
omit [FloatOps F] in
theorem pts_ocRowK (f : Buf (Elt F) (ocLoc d)) :
    ((ocRowK L).view.loc (V d (cV L) (jV L)) ↦[(ocRowK L).view.set]{fullShare} f : sProp 𝕄) = ocLoc d ↦[oRowSet (wL L)]{fullShare} f := by
  show ((ocRowK L).view.loc (V d (cV L) (jV L)) ↦[((ocV).view.slice (orowK L)).set]{fullShare} f : sProp 𝕄) = ocLoc d ↦[((ohV).view.slice (orow (wL L))).set]{fullShare} f
  rw [orowK_eq]; rfl
omit [FloatOps F] in
theorem pts_hV (q : PosShare TreeShare) (f : Buf (Elt F) (hLoc d)) :
    ((hV).view.loc (V d (cV L) (jV L)) ↦{q} f : sProp 𝕄) = hLoc d ↦{q} f := rfl
omit [FloatOps F] in
theorem pts_cV (q : PosShare TreeShare) (f : Buf (Elt F) (cLoc d)) :
    ((cV').view.loc (V d (cV L) (jV L)) ↦{q} f : sProp 𝕄) = cLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sH (f : Buf (Elt F) ((V d (cV L) (jV L)).loc cc0_scratch1)) :
    ((sH).view.loc (V d (cV L) (jV L)) ↦{fullShare} f : sProp 𝕄) = (V d (cV L) (jV L)).loc cc0_scratch1 ↦{fullShare} f := rfl
omit [FloatOps F] in
theorem pts_sC (f : Buf (Elt F) ((V d (cV L) (jV L)).loc cc0_scratch2)) :
    ((sC).view.loc (V d (cV L) (jV L)) ↦{fullShare} f : sProp 𝕄) = (V d (cV L) (jV L)).loc cc0_scratch2 ↦{fullShare} f := rfl

omit [FloatOps F] in
/-- The words the index copy lands in the index scratch are the task's block of the index array: each names a table row. -/
theorem idx_inb (hpre : ∀ j, (vi j).toNat < 100001) (fs : Buf (Elt F) ((V d (cV L) (jV L)).loc cc0_scratch0)) :
    ∀ x, ((sI).view.read (Elt F) (View.write (Elt F) (sI).view fs (ReadAs.same.apply ((iRowK L).view.read (Elt F) vi)) Finset.univ) x).toNat
      < S100001x128.size gathers_S100001x128_S128x128.axis := by
  intro x
  rw [View.write_whole_univ]
  simp only [Memref.view_whole, View.read_whole]
  show (((iRowK L).view.read (Elt F) vi) x).toNat < 100001
  rw [View.read_apply]
  exact hpre _

end Tile

end Cert.Proof.KB

end
-- ==== Proof.KB.Value.lean ====
/-
  What one task's gathers and copies leave in its block of a result, as a function of the index array and the table:
  entry `(128 w + r, k)` is entry `(idx[128 w + r], k)` of the table, which is the lookup at that entry.
-/
import proofs.«206929_g83056077570062_cont_9to1c4b_839_6_alg».proof.Proof.KB.Geom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S4096 EltTy.i32)
local notation "hV" => (Memref.whole Cert.Kernel.main_arg1_scv : Memref Cert.Kernel.sig Kind.scVector Space.hbm Cert.Kernel.S100001x128 EltTy.f32)
local notation "cV'" => (Memref.whole Cert.Kernel.main_arg2_scv : Memref Cert.Kernel.sig Kind.scVector Space.hbm Cert.Kernel.S100001x128 EltTy.f32)
local notation "ohV" => (Memref.whole Cert.Kernel.main_v1_0_scv : Memref Cert.Kernel.sig Kind.scVector Space.hbm Cert.Kernel.S4096x128 EltTy.f32)
local notation "ocV" => (Memref.whole Cert.Kernel.main_v1_1_scv : Memref Cert.Kernel.sig Kind.scVector Space.hbm Cert.Kernel.S4096x128 EltTy.f32)
local notation "sI" => (Memref.whole Cert.Kernel.cc0_scratch0 : Memref Cert.Kernel.sig Kind.scVector Space.vmem Cert.Kernel.S128 EltTy.i32)
local notation "sH" => (Memref.whole Cert.Kernel.cc0_scratch1 : Memref Cert.Kernel.sig Kind.scVector Space.vmem Cert.Kernel.S128x128 EltTy.f32)
local notation "sC" => (Memref.whole Cert.Kernel.cc0_scratch2 : Memref Cert.Kernel.sig Kind.scVector Space.vmem Cert.Kernel.S128x128 EltTy.f32)

/-- The row the gather reads for list entry `k`: the word at position `k` of the list. -/
theorem rows_val (idxf : S128.Idx → Elt F .i32) (hn : S128.numel = S128x128.size gathers_S100001x128_S128x128.axis')
    (hin : ∀ x, (idxf x).toNat < S100001x128.size gathers_S100001x128_S128x128.axis) (k : Fin (S128x128.size gathers_S100001x128_S128x128.axis')) :
    (SparseCore.rows idxf hn hin k).val = (idxf (ix1 (n := 128) ⟨k.val, k.isLt⟩)).toNat := by
  unfold SparseCore.rows
  show (idxf (S128.rowMajor.symm (k.cast hn.symm))).toNat = _
  congr 2
  rw [Equiv.symm_apply_eq]
  apply Fin.ext
  rw [Shape.rowMajor_val_one]
  rfl

/-- The gather's payload at entry `(r, k)`: the table at row `list[r]`, column `k`. -/
theorem gathered_apply (Wt : S100001x128.Idx → Elt F .f32) (idxf : S128.Idx → Elt F .i32)
    (hn : S128.numel = S128x128.size gathers_S100001x128_S128x128.axis')
    (hin : ∀ x, (idxf x).toNat < S100001x128.size gathers_S100001x128_S128x128.axis) (r k : Fin 128) :
    SparseCore.gatherPayload gathers_S100001x128_S128x128 Wt (SparseCore.rows idxf hn hin) (ix2 r k)
      = Wt (ix2 (⟨(idxf (ix1 r)).toNat, hin _⟩ : Fin 100001) k) := by
  unfold SparseCore.gatherPayload
  refine congrArg Wt ?_
  funext b
  apply Fin.ext
  match b with
  | ⟨0, _⟩ =>
    have h := Shape.Gathers.idx_axis gathers_S100001x128_S128x128 (SparseCore.rows idxf hn hin) (ix2 r k)
    have h' := congrArg Fin.val h
    refine h'.trans ?_
    rw [rows_val]
  | ⟨1, _⟩ =>
    exact Shape.Gathers.idx_of_ne gathers_S100001x128_S128x128 (SparseCore.rows idxf hn hin) (ix2 r k) ⟨1, by decide⟩ (by decide)

variable (d : Dev nD) (L : grid0.Coords)

/-- Element `r` of the task's block of the index array is element `128 w + r` of the array. -/
theorem iRowK_emb (r : Fin 128) :
    (iRowK L).view.emb (ix1 r) = ix1 (n := 4096) ⟨128 * (wL L).val + r.val, by have := (wL L).isLt; omega⟩ := by
  funext a
  apply Fin.ext
  match a with
  | ⟨0, _⟩ =>
    show (k0_off1 L) 0 + 1 * r.val = 128 * (wL L).val + r.val
    rw [k0_off1_eq]
    show 256 * (L 1).val + 128 * (L 0).val + 1 * r.val = 128 * (2 * (L 1).val + (L 0).val) + r.val
    omega

/-- Element `(r, k)` of the task's block of a result is element `(128 w + r, k)` of the result. -/
theorem ohRowK_emb (r k : Fin 128) :
    (ohRowK L).view.emb (ix2 r k) = ix2 (n0 := 4096) ⟨128 * (wL L).val + r.val, by have := (wL L).isLt; omega⟩ k := by
  funext a
  apply Fin.ext
  match a with
  | ⟨0, _⟩ =>
    show (k0_off2 L) 0 + 1 * r.val = 128 * (wL L).val + r.val
    rw [k0_off2_eq]
    show 256 * (L 1).val + 128 * (L 0).val + 1 * r.val = 128 * (2 * (L 1).val + (L 0).val) + r.val
    omega
  | ⟨1, _⟩ =>
    show (k0_off2 L) 1 + 1 * k.val = k.val
    rw [k0_off2_eq]
    show 0 + 1 * k.val = k.val
    omega

/-- A block written whole with `pay` holds, at each of its elements, what any whole-array function `g` holds there,
    as soon as `g` restricted to the block is `pay`. -/
theorem block_congr {κ : Kind} {sp : Space} {s : Shape} {e : EltTy} (v : View sig κ sp s e) (f0 g : v.ty.Contents (Elt F))
    (pay : s.Idx → Elt F e) (h : ∀ x, v.read (Elt F) g x = pay x) :
    ∀ i ∈ v.set, v.writes (Elt F) f0 [⟨Rect.whole s, pay⟩] i = g i := by
  intro i hi
  obtain ⟨x, -, rfl⟩ := Finset.mem_map.mp hi
  have h1 := View.read_writes_cons_emb v f0 (Rect.whole s) pay [] x
  rw [Rect.emb_whole_apply, ← h x, View.read_apply, View.read_apply] at h1
  exact (cast_inj _).mp h1

/-- Reading a scratch buffer whole after it was written whole gives what was written. -/
theorem read_whole_written {κ : Kind} (b : Ref sig κ) (f0 : b.ty.Contents (Elt F)) (pay : b.ty.shape.Idx → Elt F b.ty.elt) :
    ReadAs.same.apply (View.read (Elt F) (Memref.whole b).view ((Memref.whole b).view.writes (Elt F) f0 [⟨Rect.whole b.ty.shape, pay⟩])) = pay := by
  rw [ReadAs.apply_same]
  funext x
  have h1 := View.read_writes_cons_emb (Memref.whole b).view f0 (Rect.whole b.ty.shape) pay [] x
  rwa [Rect.emb_whole_apply] at h1

/-- Word `r` of the index scratch, once the task's block of the index array has been copied in, is `idx[128 w + r]`. -/
theorem list_read (vi : Buf (Elt F) (iLoc d)) (fsi : Buf (Elt F) ((V d (cV L) (jV L)).loc cc0_scratch0)) (r : Fin 128) :
    View.read (Elt F) (sI).view (View.write (Elt F) (sI).view fsi (ReadAs.same.apply ((iRowK L).view.read (Elt F) vi)) Finset.univ) (ix1 r)
      = vi (ix1 (n := 4096) ⟨128 * (wL L).val + r.val, by have := (wL L).isLt; omega⟩) := by
  rw [View.write_whole_univ]
  simp only [Memref.view_whole, View.read_whole, ReadAs.apply_same]
  show View.read (Elt F) (iRowK L).view vi (ix1 r) = _
  rw [View.read_apply, iRowK_emb]
  rfl

/-- Element `(r, k)` of the task's block of result `h` is element `(128 w + r, k)` of the result. -/
theorem ohRowK_emb' (r k : Fin 128) :
    (ohRowK L).view.emb (ix2 r k) = ix2 (n0 := 4096) ⟨128 * (wL L).val + r.val, by have := (wL L).isLt; omega⟩ k := by
  funext a
  apply Fin.ext
  match a with
  | ⟨0, _⟩ =>
    show (k0_off2 L) 0 + 1 * r.val = 128 * (wL L).val + r.val
    rw [k0_off2_eq]
    show 256 * (L 1).val + 128 * (L 0).val + 1 * r.val = 128 * (2 * (L 1).val + (L 0).val) + r.val
    omega
  | ⟨1, _⟩ =>
    show (k0_off2 L) 1 + 1 * k.val = k.val
    rw [k0_off2_eq]
    show 0 + 1 * k.val = k.val
    omega

/-- Table `h`, addressed whole through a slice, reads as itself. -/
theorem read_tbl_h (hr : ∀ a, (Rect.unit (s := S100001x128) ![0, 0] S100001x128.size inb_S100001x128_S100001x128_0_0).stride a = 1)
    (Wt : Buf (Elt F) (hLoc d)) :
    View.read (Elt F) ((hV).slice (Rect.unit (s := S100001x128) ![0, 0] S100001x128.size inb_S100001x128_S100001x128_0_0) hr).view Wt = Wt := by
  funext x
  rw [View.read_apply]
  refine (cast_eq _ _).trans (congrArg Wt ?_)
  funext a
  apply Fin.ext
  match a with
  | ⟨0, _⟩ => show 0 + 1 * (x 0).val = (x 0).val; omega
  | ⟨1, _⟩ => show 0 + 1 * (x 1).val = (x 1).val; omega

/-- What the gather out of table `h` leaves at entry `(r, k)` of the row scratch: the table at row `idx[128 w + r]`. -/
theorem gathered_h (vi : Buf (Elt F) (iLoc d)) (Wt : Buf (Elt F) (hLoc d)) (hpre : ∀ j, (vi j).toNat < 100001)
    (fsi : Buf (Elt F) ((V d (cV L) (jV L)).loc cc0_scratch0))
    (hr : ∀ a, (Rect.unit (s := S100001x128) ![0, 0] S100001x128.size inb_S100001x128_S100001x128_0_0).stride a = 1)
    (hn : S128.numel = S128x128.size gathers_S100001x128_S128x128.axis')
    (hin : ∀ x, ((sI).view.read (Elt F) (View.write (Elt F) (sI).view fsi (ReadAs.same.apply ((iRowK L).view.read (Elt F) vi)) Finset.univ) x).toNat
      < S100001x128.size gathers_S100001x128_S128x128.axis) (r k : Fin 128) :
    SparseCore.gatherPayload gathers_S100001x128_S128x128
        (View.read (Elt F) ((hV).slice (Rect.unit (s := S100001x128) ![0, 0] S100001x128.size inb_S100001x128_S100001x128_0_0) hr).view Wt)
        (SparseCore.rows (View.read (Elt F) (sI).view (View.write (Elt F) (sI).view fsi (ReadAs.same.apply ((iRowK L).view.read (Elt F) vi)) Finset.univ)) hn hin)
        (ix2 r k)
      = Wt (ix2 (⟨(vi (ix1 (n := 4096) ⟨128 * (wL L).val + r.val, by have := (wL L).isLt; omega⟩)).toNat, hpre _⟩ : Fin 100001) k) := by
  refine (gathered_apply _ _ hn hin r k).trans ?_
  rw [read_tbl_h]
  refine congrArg Wt ?_
  funext a
  apply Fin.ext
  match a with
  | ⟨0, _⟩ => exact congrArg BitVec.toNat (list_read d L vi fsi r)
  | ⟨1, _⟩ => rfl

/-- The lookup at an element of the task's block of result `h`. -/
theorem lookF_emb_h (vi : Buf (Elt F) (iLoc d)) (Wt : Buf (Elt F) (hLoc d)) (hpre : ∀ j, (vi j).toNat < 100001) (r k : Fin 128) :
    (lookF vi Wt : Buf (Elt F) (ohLoc d)) ((ohRowK L).view.emb (ix2 r k))
      = Wt (ix2 (⟨(vi (ix1 (n := 4096) ⟨128 * (wL L).val + r.val, by have := (wL L).isLt; omega⟩)).toNat, hpre _⟩ : Fin 100001) k) := by
  rw [ohRowK_emb']
  unfold lookF
  refine congrArg Wt ?_
  funext a
  apply Fin.ext
  match a with
  | ⟨0, _⟩ => exact Cert.Spec.rowOfWord_val_of_lt _ (hpre _)
  | ⟨1, _⟩ => rfl

/-- Element `(r, k)` of the task's block of result `c` is element `(128 w + r, k)` of the result. -/
theorem ocRowK_emb' (r k : Fin 128) :
    (ocRowK L).view.emb (ix2 r k) = ix2 (n0 := 4096) ⟨128 * (wL L).val + r.val, by have := (wL L).isLt; omega⟩ k := by
  funext a
  apply Fin.ext
  match a with
  | ⟨0, _⟩ =>
    show (k0_off2 L) 0 + 1 * r.val = 128 * (wL L).val + r.val
    rw [k0_off2_eq]
    show 256 * (L 1).val + 128 * (L 0).val + 1 * r.val = 128 * (2 * (L 1).val + (L 0).val) + r.val
    omega
  | ⟨1, _⟩ =>
    show (k0_off2 L) 1 + 1 * k.val = k.val
    rw [k0_off2_eq]
    show 0 + 1 * k.val = k.val
    omega

/-- Table `c`, addressed whole through a slice, reads as itself. -/
theorem read_tbl_c (hr : ∀ a, (Rect.unit (s := S100001x128) ![0, 0] S100001x128.size inb_S100001x128_S100001x128_0_0).stride a = 1)
    (Wt : Buf (Elt F) (cLoc d)) :
    View.read (Elt F) ((cV').slice (Rect.unit (s := S100001x128) ![0, 0] S100001x128.size inb_S100001x128_S100001x128_0_0) hr).view Wt = Wt := by
  funext x
  rw [View.read_apply]
  refine (cast_eq _ _).trans (congrArg Wt ?_)
  funext a
  apply Fin.ext
  match a with
  | ⟨0, _⟩ => show 0 + 1 * (x 0).val = (x 0).val; omega
  | ⟨1, _⟩ => show 0 + 1 * (x 1).val = (x 1).val; omega

/-- What the gather out of table `c` leaves at entry `(r, k)` of the row scratch: the table at row `idx[128 w + r]`. -/
theorem gathered_c (vi : Buf (Elt F) (iLoc d)) (Wt : Buf (Elt F) (cLoc d)) (hpre : ∀ j, (vi j).toNat < 100001)
    (fsi : Buf (Elt F) ((V d (cV L) (jV L)).loc cc0_scratch0))
    (hr : ∀ a, (Rect.unit (s := S100001x128) ![0, 0] S100001x128.size inb_S100001x128_S100001x128_0_0).stride a = 1)
    (hn : S128.numel = S128x128.size gathers_S100001x128_S128x128.axis')
    (hin : ∀ x, ((sI).view.read (Elt F) (View.write (Elt F) (sI).view fsi (ReadAs.same.apply ((iRowK L).view.read (Elt F) vi)) Finset.univ) x).toNat
      < S100001x128.size gathers_S100001x128_S128x128.axis) (r k : Fin 128) :
    SparseCore.gatherPayload gathers_S100001x128_S128x128
        (View.read (Elt F) ((cV').slice (Rect.unit (s := S100001x128) ![0, 0] S100001x128.size inb_S100001x128_S100001x128_0_0) hr).view Wt)
        (SparseCore.rows (View.read (Elt F) (sI).view (View.write (Elt F) (sI).view fsi (ReadAs.same.apply ((iRowK L).view.read (Elt F) vi)) Finset.univ)) hn hin)
        (ix2 r k)
      = Wt (ix2 (⟨(vi (ix1 (n := 4096) ⟨128 * (wL L).val + r.val, by have := (wL L).isLt; omega⟩)).toNat, hpre _⟩ : Fin 100001) k) := by
  refine (gathered_apply _ _ hn hin r k).trans ?_
  rw [read_tbl_c]
  refine congrArg Wt ?_
  funext a
  apply Fin.ext
  match a with
  | ⟨0, _⟩ => exact congrArg BitVec.toNat (list_read d L vi fsi r)
  | ⟨1, _⟩ => rfl

/-- The lookup at an element of the task's block of result `c`. -/
theorem lookF_emb_c (vi : Buf (Elt F) (iLoc d)) (Wt : Buf (Elt F) (cLoc d)) (hpre : ∀ j, (vi j).toNat < 100001) (r k : Fin 128) :
    (lookF vi Wt : Buf (Elt F) (ocLoc d)) ((ocRowK L).view.emb (ix2 r k))
      = Wt (ix2 (⟨(vi (ix1 (n := 4096) ⟨128 * (wL L).val + r.val, by have := (wL L).isLt; omega⟩)).toNat, hpre _⟩ : Fin 100001) k) := by
  rw [ocRowK_emb']
  unfold lookF
  refine congrArg Wt ?_
  funext a
  apply Fin.ext
  match a with
  | ⟨0, _⟩ => exact Cert.Spec.rowOfWord_val_of_lt _ (hpre _)
  | ⟨1, _⟩ => rfl

end Cert.Proof.KB

end
-- ==== Proof.KB.Tile.lean ====
/-
  One subcore's task, run once at a symbolic place `L = (c, s)`: the index block is copied in, the two tables' rows are
  gathered (both gathers in flight at once, each with half of the index scratch's share), and each row scratch is
  copied out to the task's block of its result (the two copies-out complete on one semaphore and are drained together).
  What comes back is the task's block of each result at the lookup.
-/
import proofs.«206929_g83056077570062_cont_9to1c4b_839_6_alg».proof.Proof.KB.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S4096 EltTy.i32)
local notation "hV" => (Memref.whole Cert.Kernel.main_arg1_scv : Memref Cert.Kernel.sig Kind.scVector Space.hbm Cert.Kernel.S100001x128 EltTy.f32)
local notation "cV'" => (Memref.whole Cert.Kernel.main_arg2_scv : Memref Cert.Kernel.sig Kind.scVector Space.hbm Cert.Kernel.S100001x128 EltTy.f32)
local notation "ohV" => (Memref.whole Cert.Kernel.main_v1_0_scv : Memref Cert.Kernel.sig Kind.scVector Space.hbm Cert.Kernel.S4096x128 EltTy.f32)
local notation "ocV" => (Memref.whole Cert.Kernel.main_v1_1_scv : Memref Cert.Kernel.sig Kind.scVector Space.hbm Cert.Kernel.S4096x128 EltTy.f32)
local notation "sI" => (Memref.whole Cert.Kernel.cc0_scratch0 : Memref Cert.Kernel.sig Kind.scVector Space.vmem Cert.Kernel.S128 EltTy.i32)
local notation "sH" => (Memref.whole Cert.Kernel.cc0_scratch1 : Memref Cert.Kernel.sig Kind.scVector Space.vmem Cert.Kernel.S128x128 EltTy.f32)
local notation "sC" => (Memref.whole Cert.Kernel.cc0_scratch2 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords) (vi : Buf (Elt F) (iLoc d))

set_option maxRecDepth 100000 in
set_option maxHeartbeats 4000000 in
theorem tile_body (hF : (K (F := F)).Facts) (hpre : ∀ j, (vi j).toNat < 100001) (O : CellTallies nD τ sig (HIx 1)) (W : Waits sig (HIx 1)) (hO : ∀ g, O g none = 0) :
    iprop(levAts (K (F := F)).L (K (F := F)).lev ∗ emp
        ∗ goPiece m d vi (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__dual_gather L iV (Memref.isWhole_whole _) hV (Memref.isWhole_whole _) cV' (Memref.isWhole_whole _)
            ohV (Memref.isWhole_whole _) ocV (Memref.isWhole_whole _)
            sI (Memref.isWhole_whole _) sH (Memref.isWhole_whole _) sC (Memref.isWhole_whole _) cc0_scratch3 cc0_scratch4 cc0_scratch5 cc0_scoped0)
          fun _ => iprop(tdPiece m d vi (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__dual_gather_eq_skeleton]; unfold cc0__dual_gather_skel
  rw [(K (F := F)).scopedBufs_V hF d (cV L) (jV L), SparseCore.Cfg.scopedSems0_V (Val := Elt F) d (cV L) (jV L), ownSems0_V, ownBufs_V]
  unfold goPiece
  iintro ⟨#Hlv, -, ⟨Hi, Hh, Hc, Hoh, Hoc⟩, ⟨⟨%fsi, Hsi⟩, ⟨%fsh, Hsh⟩, ⟨%fsc, Hsc⟩, Hbufs⟩, ⟨HsemG, HsemH, HsemC, HsemW, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hoh' := (Entails.of_eq (pts_ohRowK (F := F) d L _).symm) $$ Hoh
  ihave Hoc' := (Entails.of_eq (pts_ocRowK (F := F) d L _).symm) $$ Hoc
  ihave Hh' := (Entails.of_eq (pts_hV (F := F) d L _ _).symm) $$ Hh
  ihave Hc' := (Entails.of_eq (pts_cV (F := F) d L _ _).symm) $$ Hc
  ihave Hsi' := (Entails.of_eq (pts_sI (F := F) d L _).symm) $$ Hsi
  ihave Hsh' := (Entails.of_eq (pts_sH (F := F) d L _).symm) $$ Hsh
  ihave Hsc' := (Entails.of_eq (pts_sC (F := F) d L _).symm) $$ Hsc
  sl_exec
  -- both gathers read the index scratch while they are in flight: each takes half of its share
  ihave Hsi2 := (pointsTo_share (PosShare.mem_left_op_right fullShare)).1 $$ Hsi'
  icases Hsi2 with ⟨HsiL, HsiR⟩
  have hin := idx_inb (F := F) d L vi hpre fsi
  have hB : Transfers.BatchOf (V d (cV L) (jV L)) (SemLoc.dma cc0_scratch5.sem) 2 := trivial
  sl_exec
  sl_step
  -- what the two copies-out left in the task's blocks is the lookup there
  have hvh : ∀ i ∈ (ohRowK L).view.set,
      (ohRowK L).view.writes (Elt F) (m (ohLoc d)) [⟨Rect.whole S128x128, tile_body.sl.dma2 m d L vi fsi fsh hin⟩] i
        = (lookF vi (m (hLoc d)) : Buf (Elt F) (ohLoc d)) i :=
    block_congr _ _ _ _ (fun x => by
      obtain ⟨r, k, rfl⟩ : ∃ r k, x = ix2 r k := ⟨x 0, x 1, eq_ix2 x⟩
      rw [View.read_apply]
      refine (cast_eq _ _).trans ?_
      rw [lookF_emb_h d L vi _ hpre]
      unfold tile_body.sl.dma2 tile_body.sl.gather0 tile_body.sl.dma0
      exact ((congrFun (read_whole_written (F := F) cc0_scratch1 fsh _) (ix2 r k)).trans (gathered_h d L vi _ hpre fsi _ _ hin r k)).symm)
  have hvc : ∀ i ∈ (ocRowK L).view.set,
      (ocRowK L).view.writes (Elt F) (m (ocLoc d)) [⟨Rect.whole S128x128, tile_body.sl.dma3 m d L vi fsi fsc hin⟩] i
        = (lookF vi (m (cLoc d)) : Buf (Elt F) (ocLoc d)) i :=
    block_congr _ _ _ _ (fun x => by
      obtain ⟨r, k, rfl⟩ : ∃ r k, x = ix2 r k := ⟨x 0, x 1, eq_ix2 x⟩
      rw [View.read_apply]
      refine (cast_eq _ _).trans ?_
      rw [lookF_emb_c d L vi _ hpre]
      unfold tile_body.sl.dma3 tile_body.sl.gather1 tile_body.sl.dma0
      exact ((congrFun (read_whole_written (F := F) cc0_scratch2 fsc _) (ix2 r k)).trans (gathered_c d L vi _ hpre fsi _ _ hin r k)).symm)
  ihave Hoh2 := (Entails.of_eq (pointsTo_congr hvh)) $$ Hoh'
  ihave Hoc2 := (Entails.of_eq (pointsTo_congr hvc)) $$ Hoc'
  ihave Hsi3 := (pointsTo_share (PosShare.mem_left_op_right fullShare)).2 $$ [HsiL HsiR]
  · isplitl [HsiL] <;> iassumption
  unfold tdPiece
  isplitl [Hi' Hh' Hc' Hoh2 Hoc2]
  · isplitl [Hi']; · iapply (Entails.of_eq (pts_iRowK (F := F) d L _)); iexact Hi'
    isplitl [Hh']; · iapply (Entails.of_eq (pts_hV (F := F) d L _ _)); iexact Hh'
    isplitl [Hc']; · iapply (Entails.of_eq (pts_cV (F := F) d L _ _)); iexact Hc'
    isplitl [Hoh2]; · iapply (Entails.of_eq (pts_ohRowK (F := F) d L _)); iexact Hoh2
    iapply (Entails.of_eq (pts_ocRowK (F := F) d L _)); iexact Hoc2
  isplitl [Hsi3 Hsh' Hsc' Hbufs]
  · isplitl [Hsi3]; · iexists _; iapply (Entails.of_eq (pts_sI (F := F) d L _)); iexact Hsi3
    isplitl [Hsh']; · iexists _; iapply (Entails.of_eq (pts_sH (F := F) d L _)); iexact Hsh'
    isplitl [Hsc']; · iexists _; iapply (Entails.of_eq (pts_sC (F := F) d L _)); iexact Hsc'
    iexact Hbufs
  isplitl [HsemG HsemH HsemC HsemW Hsems]
  · isplitl [HsemG]; · iexact HsemG
    isplitl [HsemH]; · iexact HsemH
    isplitl [HsemC]; · iexact HsemC
    isplitl [HsemW]; · iexact HsemW
    iexact Hsems
  iexists _; isplitr
  rotate_left
  · iexact HO
  · ipureintro
    intro p hp
    rcases Finset.mem_insert.mp hp with h | hp; · exact .inr (by subst h; rfl)
    rcases Finset.mem_insert.mp hp with h | hp; · exact .inr (by subst h; rfl)
    rcases Finset.mem_insert.mp hp with h | hp; · exact .inr (by subst h; rfl)
    rcases Finset.mem_insert.mp hp with h | hp; · exact .inr (by subst h; rfl)
    rcases Finset.mem_insert.mp hp with h | hp; · exact .inr (by subst h; rfl)
    exact .inl hp

end Tile

end Cert.Proof.KB

end
-- ==== Proof.KB.Launch.lean ====
/-
  The launch: from every subcore's task to the run of the whole program.

  @main reshapes the index argument into the flat index array and starts the two SparseCores; each hands its sixteen
  subcores their pieces (block `2 s + c` of the index array and of each result, a read share of each table) and
  collects them; when both are back the thirty-two result blocks, each at the lookup, are the two results whole.
-/
import proofs.«206929_g83056077570062_cont_9to1c4b_839_6_alg».proof.Proof.KB.Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sdiff_result wp_hlo_within)

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S4096 EltTy.i32)
local notation "hV" => (Memref.whole Cert.Kernel.main_arg1_scv : Memref Cert.Kernel.sig Kind.scVector Space.hbm Cert.Kernel.S100001x128 EltTy.f32)
local notation "cV'" => (Memref.whole Cert.Kernel.main_arg2_scv : Memref Cert.Kernel.sig Kind.scVector Space.hbm Cert.Kernel.S100001x128 EltTy.f32)
local notation "ohV" => (Memref.whole Cert.Kernel.main_v1_0_scv : Memref Cert.Kernel.sig Kind.scVector Space.hbm Cert.Kernel.S4096x128 EltTy.f32)
local notation "ocV" => (Memref.whole Cert.Kernel.main_v1_1_scv : Memref Cert.Kernel.sig Kind.scVector Space.hbm Cert.Kernel.S4096x128 EltTy.f32)
local notation "sI" => (Memref.whole Cert.Kernel.cc0_scratch0 : Memref Cert.Kernel.sig Kind.scVector Space.vmem Cert.Kernel.S128 EltTy.i32)
local notation "sH" => (Memref.whole Cert.Kernel.cc0_scratch1 : Memref Cert.Kernel.sig Kind.scVector Space.vmem Cert.Kernel.S128x128 EltTy.f32)
local notation "sC" => (Memref.whole Cert.Kernel.cc0_scratch2 : Memref Cert.Kernel.sig Kind.scVector Space.vmem Cert.Kernel.S128x128 EltTy.f32)

variable (m : (ℓ : Loc nD τ sig) → Buf (Elt F) ℓ) (ρ : Dev nD → PrngReg)
variable [FloatOps F]

/-! ## The tile obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__dual_gather (coordsV c s)
          iV (Memref.isWhole_whole _) hV (Memref.isWhole_whole _) cV' (Memref.isWhole_whole _) ohV (Memref.isWhole_whole _) ocV (Memref.isWhole_whole _)
          sI (Memref.isWhole_whole _) sH (Memref.isWhole_whole _) sC (Memref.isWhole_whole _) cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 100000 in
theorem tileObl (vi : (d : Dev nD) → Buf (Elt F) (iLoc d)) (hF : (K (F := F)).Facts) (hpre : ∀ d j, (vi d j).toNat < 100001) :
    (K (F := F)).TileObl (D (F := F)) 𝒱 (P m vi) v₀ 0 := by
  intro d c i O W hO _ _
  simp only [show (P m vi).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) (vi d) hF (hpre d) O W hO).trans (wp_mono frame _ _ fun _ => obl_post)

/-! ## A SparseCore's pieces are its tasks' -/

theorem vecSplit (vi : (d : Dev nD) → Buf (Elt F) (iLoc d)) : (K (F := F)).VecSplit' (P m vi) 0 := by
  intro d c
  show (bigSep Finset.univ fun i : Fin ((K (F := F)).nSub 0) => goPiece m d (vi d) (wid (Fin.cast nCore_zero c) (Fin.cast nSub_zero i)))
    ⊢ |={Set.univ}=> iprop((bigSep Finset.univ fun i : Fin ((K (F := F)).nSub 0) => goPiece m d (vi d) (wid (Fin.cast nCore_zero c) (Fin.cast nSub_zero i)))
      ∗ ((bigSep Finset.univ fun i : Fin ((K (F := F)).nSub 0) => tdPiece m d (vi d) (wid (Fin.cast nCore_zero c) (Fin.cast nSub_zero i)))
          -∗ (bigSep Finset.univ fun i : Fin ((K (F := F)).nSub 0) => tdPiece m d (vi d) (wid (Fin.cast nCore_zero c) (Fin.cast nSub_zero i)))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (vi : (d : Dev nD) → Buf (Elt F) (iLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m vi).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m vi).x q thr) = bigSep Finset.univ fun _ => iprop(emp) from
    bigSep_congr fun _ _ => bigSep_univ_of_subsingleton (0 : Fin 1), bigSep_emp']
  iempintro

/-! ## Thirty-two blocks, thirty-two read shares -/

omit [FloatOps F] in
theorem iRowSet_eq (w : Fin 32) : iRowSet w = (irow w).set := by
  show ((View.whole (main_v0_scv : Ref sig .scVector)).slice (irow w)).set = _
  rw [View.set_slice]; exact Finset.map_refl
omit [FloatOps F] in
theorem oRowSet_eq (w : Fin 32) : oRowSet w = (orow w).set := by
  show ((View.whole (main_v1_0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
/-- The index array whole is its thirty-two blocks. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem ohPts_rows (d : Dev nD) (f : Buf (Elt F) (ohLoc d)) :
    (ohLoc d ↦{fullShare} f : sProp 𝕄) = bigSep Finset.univ fun w : Fin 32 => ohLoc d ↦[oRowSet w]{fullShare} f := by
  rw [← pointsTo_biUnion Finset.univ (ℓ := ohLoc d) oRowSet orows_disjoint, orows_cover]; try rfl
omit [FloatOps F] in
theorem ocPts_rows (d : Dev nD) (f : Buf (Elt F) (ocLoc d)) :
    (ocLoc d ↦{fullShare} f : sProp 𝕄) = bigSep Finset.univ fun w : Fin 32 => ocLoc d ↦[oRowSet w]{fullShare} f := by
  rw [← pointsTo_biUnion Finset.univ (ℓ := ocLoc d) oRowSet orows_disjoint, orows_cover]; try rfl

/-- Task `2 s + c` of subcore `s` of SparseCore `c`: the thirty-two tasks, once each. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    refine Prod.ext (Fin.ext ?_) (Fin.ext ?_)
    · show (2 * i.val + c.val) % 2 = c.val
      have := c.isLt; omega
    · show (2 * i.val + c.val) / 2 = i.val
      have := c.isLt; omega
  right_inv w := by
    apply Fin.ext
    show 2 * (w.val / 2) + w.val % 2 = w.val
    omega

omit [FloatOps F] in
theorem bigSep_tasks (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i))) = bigSep Finset.univ Φ := by
  rw [bigSep_univ_equiv widEquiv Φ, bigSep_univ_prod]
  rfl

theorem st_all (vi : (d : Dev nD) → Buf (Elt F) (iLoc d)) (d : Dev nD) :
    (bigSep Finset.univ fun c : Fin ((K (F := F)).nCore 0) => (P m vi).st 0 d c)
      = iprop((bigSep Finset.univ fun w : Fin 32 => iLoc d ↦[iRowSet w]{fullShare} vi d)
        ∗ (bigSep Finset.univ fun w : Fin 32 => hLoc d ↦{tq w} m (hLoc d))
        ∗ (bigSep Finset.univ fun w : Fin 32 => cLoc d ↦{tq w} m (cLoc d))
        ∗ (bigSep Finset.univ fun w : Fin 32 => ohLoc d ↦[oRowSet w]{fullShare} m (ohLoc d))
        ∗ (bigSep Finset.univ fun w : Fin 32 => ocLoc d ↦[oRowSet w]{fullShare} m (ocLoc d))) := by
  refine (bigSep_tasks (F := F) (fun w => goPiece m d (vi d) w)).trans ?_
  unfold goPiece
  rw [bigSep_sep', bigSep_sep', bigSep_sep', bigSep_sep']

theorem dn_all (vi : (d : Dev nD) → Buf (Elt F) (iLoc d)) (d : Dev nD) :
    (bigSep Finset.univ fun c : Fin ((K (F := F)).nCore 0) => (P m vi).dn 0 d c)
      = iprop((bigSep Finset.univ fun w : Fin 32 => iLoc d ↦[iRowSet w]{fullShare} vi d)
        ∗ (bigSep Finset.univ fun w : Fin 32 => hLoc d ↦{tq w} m (hLoc d))
        ∗ (bigSep Finset.univ fun w : Fin 32 => cLoc d ↦{tq w} m (cLoc d))
        ∗ (bigSep Finset.univ fun w : Fin 32 => ohLoc d ↦[oRowSet w]{fullShare} (lookF (vi d) (m (hLoc d)) : Buf (Elt F) (ohLoc d)))
        ∗ (bigSep Finset.univ fun w : Fin 32 => ocLoc d ↦[oRowSet w]{fullShare} (lookF (vi d) (m (cLoc d)) : Buf (Elt F) (ocLoc d)))) := by
  refine (bigSep_tasks (F := F) (fun w => tdPiece m d (vi d) w)).trans ?_
  unfold tdPiece
  rw [bigSep_sep', bigSep_sep', bigSep_sep', bigSep_sep']

/-! ## @main on the TensorCore -/

abbrev aLoc (d : Dev nD) : Loc nD τ sig := (SparseCore.T d).loc main_arg0
abbrev a' : DevRef τ sig := Proc.devRef .tc (main_arg0 : Ref sig .tc)
abbrev i' : DevRef τ sig := Proc.devRef .tc (main_v0 : Ref sig .tc)
/-- @main's one host operation: the index argument, 4096 × 1 × 1, read as a flat array of 4096. -/
abbrev opR : HloOp τ sig (Elt F) := StableHlo.reshape main_arg0 main_v0 rfl shapeCasts_S4096x1x1_S4096
abbrev S2 : Finset (DevRef τ sig) := {a', i'}

def V0 (d : Dev nD) : Valuation τ sig (Elt F) := fun b => m (d, b)
/-- The flat index array as the reshape leaves it. -/
def vI (d : Dev nD) : Buf (Elt F) (iLoc d) := (opR (F := F)).result (V0 m d) i'

omit [FloatOps F] in
theorem held_S2 (d : Dev nD) (W : Valuation τ sig (Elt F)) :
    (held (T d) S2 W : sProp 𝕄) = iprop((aLoc d ↦{fullShare} W a') ∗ (iLoc d ↦{fullShare} W i')) := by
  unfold held S2
  rw [SparseCore.bigSep_insert' (by decide), bigSep_singleton]

theorem held_R (d : Dev nD) :
    (held (T d) S2 ((opR (F := F)).result (V0 m d)) : sProp 𝕄) = iprop((aLoc d ↦{fullShare} m (aLoc d)) ∗ (iLoc d ↦{fullShare} vI m d)) := by
  rw [held_S2, (opR (F := F)).result_of_not_mem (V0 m d) (b := a') (show a' ∉ ({i'} : Finset (DevRef τ sig)) by decide)]
  rfl

theorem hR : (opR (F := F)).bufs ⊆ S2 := show ({a', i'} : Finset (DevRef τ sig)) ⊆ S2 by decide

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (hLoc d ↦{fullShare} W main_arg1) ∗ (cLoc d ↦{fullShare} W main_arg2)
      ∗ (iLoc d ↦{fullShare} W main_v0) ∗ (ohLoc d ↦{fullShare} W main_v1_0) ∗ (ocLoc d ↦{fullShare} W main_v1_1)) := by
  unfold unscopedBufs
  rw [show (Finset.univ.filter fun b : Ref sig .tc => ¬ b.isScoped) = {main_arg0, main_arg1, main_arg2, main_v0, main_v1_0, main_v1_1} by decide,
    SparseCore.bigSep_insert' (by decide), SparseCore.bigSep_insert' (by decide), SparseCore.bigSep_insert' (by decide),
    SparseCore.bigSep_insert' (by decide), SparseCore.bigSep_insert' (by decide), bigSep_singleton]

/-- What @main leaves the claim: the three arguments as launched, the two results at the lookup. -/
abbrev FIN (d : Dev nD) : sProp 𝕄 :=
  iprop((aLoc d ↦{fullShare} m (aLoc d)) ∗ (hLoc d ↦{fullShare} m (hLoc d)) ∗ (cLoc d ↦{fullShare} m (cLoc d))
    ∗ (ohLoc d ↦{fullShare} (lookF (vI m d) (m (hLoc d)) : Buf (Elt F) (ohLoc d)))
    ∗ (ocLoc d ↦{fullShare} (lookF (vI m d) (m (cLoc d)) : Buf (Elt F) (ocLoc d))))

set_option maxRecDepth 100000 in
/-- @main on device `d`'s TensorCore: the reshape, then the one call — every array dealt out block by block and
    share by share, and collected again. -/
theorem hmain (κ : GSem nD τ sig → ℕ) (d : Dev nD) :
    iprop((K (F := F)).ctx EH (P m (vI m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hh, Hc, Hi, Hoh, Hoc⟩, -, -⟩, -⟩
  iapply (wp_hlo_within 𝒱 (SparseCore.T d) none Set.univ (op := opR) (S := S2) hR (V := V0 m d)) $$ [Hb Ha Hi]
  · isplitl [Hb]; · iexact Hb
    rw [held_S2]
    isplitl [Ha]; · iexact Ha
    iexact Hi
  iintro ⟨Hb, Hheld⟩
  ihave Hh2 := (Entails.of_eq (held_R (F := F) m d)) $$ Hheld
  icases Hh2 with ⟨Ha, Hi⟩
  rw [wp_ret]; imodintro
  -- deal the arrays out: blocks of the index array and of the results, read shares of the tables
  ihave Hi' := (Entails.of_eq (iPts_rows (F := F) d _)) $$ Hi
  ihave Hoh' := (Entails.of_eq (ohPts_rows (F := F) d _)) $$ Hoh
  ihave Hoc' := (Entails.of_eq (ocPts_rows (F := F) d _)) $$ Hoc
  ihave Hh' := (Transfers.pointsTo_toks_split (ℓ := hLoc d) (S := Finset.univ) (f := m (hLoc d)) fullShare 32) $$ Hh
  icases Hh' with ⟨Hhd, Hht⟩
  ihave Hc' := (Transfers.pointsTo_toks_split (ℓ := cLoc d) (S := Finset.univ) (f := m (cLoc d)) fullShare 32) $$ Hc
  icases Hc' with ⟨Hcd, Hct⟩
  iapply ((K (F := F)).wp_run (D (F := F)) 𝒱 (EH := EH) (P := P m (vI m)) κ d 0) $$ [Hst Hi' Hht Hct Hoh' Hoc' Ha Hhd Hcd]
  isplitr; · iexact Hctx
  isplitl [Hst]; · iexact Hst
  isplitl [Hi' Hht Hct Hoh' Hoc']
  · rw [st_all]
    isplitl [Hi']; · iexact Hi'
    isplitl [Hht]; · iexact Hht
    isplitl [Hct]; · iexact Hct
    isplitl [Hoh']; · iexact Hoh'
    iexact Hoc'
  iintro ⟨Hst, Hdn⟩
  ihave Hdn' := (Entails.of_eq (dn_all (F := F) m (vI m) d)) $$ Hdn
  icases Hdn' with ⟨-, Hht, Hct, Hoh', Hoc'⟩
  -- and collect them: the tables' shares, the results' blocks (each at the lookup)
  ihave Hh := (Transfers.pointsTo_toks_join (ℓ := hLoc d) (S := Finset.univ) (f := m (hLoc d)) fullShare 32) $$ [Hhd Hht]
  · isplitl [Hhd] <;> iassumption
  ihave Hc := (Transfers.pointsTo_toks_join (ℓ := cLoc d) (S := Finset.univ) (f := m (cLoc d)) fullShare 32) $$ [Hcd Hct]
  · isplitl [Hcd] <;> iassumption
  ihave Hoh := (Entails.of_eq (ohPts_rows (F := F) d _).symm) $$ Hoh'
  ihave Hoc := (Entails.of_eq (ocPts_rows (F := F) d _).symm) $$ Hoc'
  imodintro
  isplitl [Hst]; · iexact Hst
  isplitl [Ha]; · iexact Ha
  isplitl [Hh]; · iexact Hh
  isplitl [Hc]; · iexact Hc
  isplitl [Hoh]; · iexact Hoh
  iexact Hoc

/-! ## What the final memory holds -/

def fq (d : Dev nD) (s' : Phys nD τ sig (Elt F)) : Prop :=
  s'.mem.mem (aLoc d) = m (aLoc d) ∧ s'.mem.mem (hLoc d) = m (hLoc d) ∧ s'.mem.mem (cLoc d) = m (cLoc d)
    ∧ s'.mem.mem (ohLoc d) = (lookF (vI m d) (m (hLoc d)) : Buf (Elt F) (ohLoc d))
    ∧ s'.mem.mem (ocLoc d) = (lookF (vI m d) (m (cLoc d)) : Buf (Elt F) (ocLoc d))

set_option maxRecDepth 100000 in
theorem hfin (d : Dev nD) (s' : Phys nD τ sig (Elt F)) : iprop(FIN m d ∗ SI s') ⊢ (⌜fq m d s'⌝ : sProp 𝕄) := by
  iintro ⟨⟨Ha, Hh, Hc, Hoh, Hoc⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h2, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h3, HSI, -⟩
  ihave H := (persistent_entails_right (SI_pointsTo_agree (st := s') (ℓ := ohLoc d) (I := Finset.univ) (q := fullShare)
    (f := (lookF (vI m d) (m (hLoc d)) : Buf (Elt F) (ohLoc d))))) $$ [HSI Hoh]
  · isplitl [HSI] <;> iassumption
  icases H with ⟨%h4, HSI, -⟩
  ihave H := (SI_pointsTo_agree (st := s') (ℓ := ocLoc d) (I := Finset.univ) (q := fullShare)
    (f := (lookF (vI m d) (m (cLoc d)) : Buf (Elt F) (ocLoc d)))) $$ [HSI Hoc]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (aLoc c) = m (aLoc c) ∧ r.2.mem (hLoc c) = m (hLoc c) ∧ r.2.mem (cLoc c) = m (cLoc c)
    ∧ r.2.mem (ohLoc c) = (lookF (vI m c) (m (hLoc c)) : Buf (Elt F) (ohLoc c))
    ∧ r.2.mem (ocLoc c) = (lookF (vI m c) (m (cLoc c)) : Buf (Elt F) (ocLoc c))

/-- Every weakly fair execution of the device's threads ends, nothing faulting, with the arguments unchanged and each
    result at the lookup of the flat index array in its table — as soon as every index word names a table row. -/
theorem run_main [∀ e, Nonempty (Elt F e)] (hpre : ∀ d j, (vI m d j).toNat < 100001) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (vI m)) facts v₀
    (fun q hq => match q with | 0 => nomatch hq)
    (fun q _ => match q with | 0 => tileObl m (vI m) facts hpre)
    (fun q _ => match q with | 0 => SparseCore.Cfg.VecSplit.of_plain (vecSplit m (vI m)))
    m ρ main (fun _ => iprop(emp)) (FIN m) (u₀ (F := F)) (sep_elim_left.trans (hu₀ m (vI m))) (hmain m ρ) (fq m) (hfin m) (QC m) (fun _ h => h)

end Cert.Proof.KB

end
-- ==== Proof.KB.Bridge.lean ====
/-
  From the certificate's precondition to what the run asks, and from the run's flat lookup to the shared one: the
  reshape lays the 4096 × 1 × 1 index argument out flat in the same order, so word `r` of the flat array is word
  `(r, 0, 0)` of the argument, and the lookup over the flat array is the lookup over the argument.
-/
import proofs.«206929_g83056077570062_cont_9to1c4b_839_6_alg».proof.Proof.KB.Launch
import proofs.«206929_g83056077570062_cont_9to1c4b_839_6_alg».proof.Proof.RefPre
import proofs.«206929_g83056077570062_cont_9to1c4b_839_6_alg».proof.Proof.Gen.Pre_input_domain
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

variable (m : (ℓ : Loc nD τ sig) → Buf (Elt F) ℓ)
variable [FloatOps F]

/-- Word `r` of the flat index array is word `(r, 0, 0)` of the index argument. -/
theorem vI_apply (d : Dev nD) (r : Fin 4096) :
    vI m d (ix1 r) = m (aLoc d) (ix3 r (0 : Fin 1) (0 : Fin 1)) := by
  unfold vI
  rw [StableHlo.reshape_result]
  show shapeCast S4096 (m (aLoc d)) shapeCasts_S4096x1x1_S4096 (ix1 r) = _
  exact shapeCast_apply _ _ (ix1 r) (ix3 r 0 0) (by rw [Shape.rowMajor_val_three, Shape.rowMajor_val_one]; simp)

/-- The lookup over the flat index array is the lookup over the index argument. -/
theorem lookF_vI {α : Type} (d : Dev nD) (W : S100001x128.Idx → α) :
    lookF (vI m d) W = Cert.Spec.lookup (m (aLoc d)) W := by
  funext j
  exact congrArg (fun w => W (ix2 (Cert.Spec.rowOfWord w) (n1 := 128) (j 1))) (vI_apply m d (j 0))

/-- Under the precondition (every index word between 0 and 100000) every word of the flat array names a table row. -/
theorem hpre_of_pre (h : ∀ c : Dev nD, Cert.Pre_input_domain.fn (F := F) (m (aLoc c)) (m (hLoc c)) (m (cLoc c)) = fun _ => 1#1) :
    ∀ d j, (vI m d j).toNat < 100001 := by
  intro d j
  have e : vI m d j = m (aLoc d) (ix3 (j 0) (0 : Fin 1) (0 : Fin 1)) := (congrArg (vI m d) (eq_ix1 (n := 4096) j)).trans (vI_apply m d (j 0))
  rw [e]
  exact Nat.lt_succ_of_le (Cert.Proof.RefSide.idx_le_of_pre _ _ _ (h d) _)

end Cert.Proof.KB

end
-- ==== Proof.RefValue.lean ====
/-
  The value of one call of the reference's lookup function, read at an index. The function takes a table and an
  array of index words. It first moves a negative word up by the number of rows, then gathers the table's rows at the
  resulting words (the gather clamps each word into the range of rows), and finally replaces every row whose word
  was out of range by a fixed not-a-number value. When every index word is between 0 and 100000 none of the three
  steps does anything: no word is negative, no word is clamped, no row is replaced, and the result's row r is the
  table's row idx[r]. The reshape that follows only renames the index, so the reshaped result is the lookup of
  the shared specification.
-/
import proofs.«206929_g83056077570062_cont_9to1c4b_839_6_alg».proof.Proof.Gen.ReferenceIdeal
import proofs.«206929_g83056077570062_cont_9to1c4b_839_6_alg».proof.Proof.Spec
import Idealize.ShloMosaic.Lib.ValueIdx
import Idealize.ShloMosaic.Lib.Affine
import Idealize.ShloMosaic.Lib.Pipeline.Value
import Idealize.ShloMosaic.PureOps.Reduce

noncomputable section

namespace Cert.Proof.RefSide

open Idealize.ShloMosaic Idealize.ShloMosaic.ValueIdx Cert.ReferenceIdeal Cert.ReferenceIdeal.Gen

variable {F : FTy → Type} [FloatOps F]

/-! ## The stages of the function, as functions of the table and the index words -/

/-- A negative index word counts from the end: it is moved up by the number of rows, 100001. -/
def wrapped (idx : IVec S4096x1x1 32) : IVec S4096x1x1 32 :=
  select (cmpi .slt idx (broadcastInDim S4096x1x1 ![] bcast_S_S4096x1x1 (constantI S_ 32 0#32)))
    (addi idx (broadcastInDim S4096x1x1 ![] bcast_S_S4096x1x1 (constantI S_ 32 100001#32))) idx

/-- The start indices of the gather: the moved words, with a unit axis appended for the index vector. -/
def startIdx (idx : IVec S4096x1x1 32) : IVec S4096x1x1x1 32 :=
  broadcastInDim S4096x1x1x1 ![0, 1, 2] bcast_S4096x1x1_S4096x1x1x1_0_1_2 (wrapped idx)

/-- Whether a start index is a row of the table: at least 0 and at most 100000, the conjunction over the unit axis
    of the index vector. -/
def inRange (idx : IVec S4096x1x1 32) : IVec S4096x1x1 1 :=
  Host.reduce IntOp.andi
    (andi (cmpi .sge (startIdx idx) (broadcastInDim S4096x1x1x1 ![] bcast_S_S4096x1x1x1 (constantI S_ 32 0#32)))
      (cmpi .sle (startIdx idx) (broadcastInDim S4096x1x1x1 ![0, 1, 2, 3] bcast_S1x1x1x1_S4096x1x1x1_0_1_2_3
        (broadcastInDim S1x1x1x1 ![3] bcast_S1_S1x1x1x1_3 (constantI S1 32 100000#32)))))
    (constantI S_ 1 1#1) reducesTo_S4096x1x1x1_S4096x1x1_d3 h_S_

/-- One call of the lookup function: the gathered rows where the start index is in range, a not-a-number elsewhere. -/
def take (W : FVec F S100001x128 .f32) (idx : IVec S4096x1x1 32) : FVec F S4096x1x1x128 .f32 :=
  select (broadcastInDim S4096x1x1x128 ![0, 1, 2] bcast_S4096x1x1_S4096x1x1x128_0_1_2 (inRange idx))
    (Host.gather gather_S100001x128_S4096x1x1x1_S4096x1x1x128_3_0_n_n_0_3_1128 W (startIdx idx))
    (broadcastInDim S4096x1x1x128 ![] bcast_S_S4096x1x1x128 (constant S_ .f32 0x7FC00000#32))

/-! ## Words in range -/

/-- A word that is at most 100000 as a natural number is the same number as a signed integer. -/
theorem toInt_of_le (v : BitVec 32) (h : v.toNat ≤ 100000) : v.toInt = (v.toNat : Int) :=
  BitVec.toInt_eq_toNat_of_lt (by omega)

/-- A word in range is not negative: the move does nothing. -/
theorem wrapped_apply (idx : IVec S4096x1x1 32) (i : S4096x1x1.Idx) (h : (idx i).toNat ≤ 100000) :
    wrapped idx i = idx i := by
  show Scalar.select (IntOp.cmpi .slt (idx i) 0#32) (IntOp.addi (idx i) 100001#32) (idx i) = idx i
  have hz : IntOp.cmpi .slt (idx i) 0#32 = 0#1 := by
    apply eq_zero_of_ne_one
    rw [IntOp.cmpi_slt, toInt_of_le _ h, show (0#32 : BitVec 32).toInt = 0 from by decide]
    omega
  rw [hz, select_zero]

/-- A conjunction of ones from one is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by conjunction, from one, of an array of ones is one everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- Every start index is one of the moved words. -/
theorem startIdx_eq (idx : IVec S4096x1x1 32) (i : S4096x1x1x1.Idx) : ∃ k, startIdx idx i = wrapped idx k := ⟨_, rfl⟩

/-- When every word is in range, every start index is in range. -/
theorem inRange_apply (idx : IVec S4096x1x1 32) (h : ∀ i, (idx i).toNat ≤ 100000) (j : S4096x1x1.Idx) :
    inRange idx j = 1#1 := by
  unfold inRange
  refine reduce_andi_of_all_one _ _ _ _ (fun i => ?_) rfl j
  obtain ⟨k, hk⟩ := startIdx_eq idx i
  show IntOp.andi (IntOp.cmpi .sge (startIdx idx i) 0#32) (IntOp.cmpi .sle (startIdx idx i) 100000#32) = 1#1
  rw [hk, wrapped_apply idx k (h k)]
  refine IntOp.andi_eq_one.2 ⟨IntOp.cmpi_sge.2 ?_, IntOp.cmpi_sle.2 ?_⟩
  · rw [toInt_of_le _ (h k), show (0#32 : BitVec 32).toInt = 0 from by decide]; omega
  · rw [toInt_of_le _ (h k), show (100000#32 : BitVec 32).toInt = 100000 from by decide]; have := h k; omega

/-! ## The gather, read at an index -/

/-- The gather read at an index (r, a, b, k): the table at the row the start index (r, a, b, 0) names, read as a signed
    integer and clamped into the rows, and at column k. -/
theorem gather_apply (W : FVec F S100001x128 .f32) (st : IVec S4096x1x1x1 32) (j : S4096x1x1x128.Idx) :
    Host.gather gather_S100001x128_S4096x1x1x1_S4096x1x1x128_3_0_n_n_0_3_1128 W st j
      = W (ix2 ⟨min (st (ix4 (j 0) (j 1) (j 2) 0)).toInt.toNat 100000, by omega⟩ (j 3)) := by
  unfold Host.gather
  refine congrArg W (funext fun a => Fin.ext ?_)
  match a with
  | ⟨0, _⟩ =>
    show GatherDims.start _ j st 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x128_S4096x1x1x1_S4096x1x1x128_3_0_n_n_0_3_1128.startIndexMap from List.mem_singleton.mpr rfl)]
    have hsi : gather_S100001x128_S4096x1x1x1_S4096x1x1x128_3_0_n_n_0_3_1128.siIdx j
        ⟨List.idxOf (0 : Fin 2) gather_S100001x128_S4096x1x1x1_S4096x1x1x128_3_0_n_n_0_3_1128.startIndexMap,
          List.idxOf_lt_length_iff.2 (List.mem_singleton.mpr rfl)⟩ = ix4 (j 0) (j 1) (j 2) 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show GatherDims.start _ j st 1 + GatherDims.batchCoord _ j 1 + GatherDims.offCoord _ j 1 = (j 3).val
    rw [GatherDims.batchCoord_eq_zero _ _ _ List.not_mem_nil]
    unfold GatherDims.start
    rw [dif_neg (show (1 : Fin 2) ∉ gather_S100001x128_S4096x1x1x1_S4096x1x1x128_3_0_n_n_0_3_1128.startIndexMap from by decide)]
    unfold GatherDims.offCoord
    rw [dif_pos (show (1 : Fin 2) ∈ gather_S100001x128_S4096x1x1x1_S4096x1x1x128_3_0_n_n_0_3_1128.sKept from by decide)]
    simp only [Nat.zero_add]
    rfl

/-! ## One call, and the reshape after it, read at an index -/

/-- The start index (r, a, b, 0) is the moved word at (r, 0, 0): the two middle axes have one coordinate. -/
theorem startIdx_apply (idx : IVec S4096x1x1 32) (j : S4096x1x1x128.Idx) :
    startIdx idx (ix4 (j 0) (j 1) (j 2) 0) = wrapped idx (ix3 (j 0) 0 0) := by
  unfold startIdx broadcastInDim
  refine congrArg (wrapped idx) (funext fun a => Fin.ext ?_)
  match a with
  | ⟨0, _⟩ => rfl
  | ⟨1, _⟩ => rfl
  | ⟨2, _⟩ => rfl

/-- When every index word is at most 100000, one call of the lookup function at (r, a, b, k) is the table at row
    idx[r], column k. -/
theorem take_apply (W : FVec F S100001x128 .f32) (idx : IVec S4096x1x1 32) (h : ∀ i, (idx i).toNat ≤ 100000)
    (j : S4096x1x1x128.Idx) :
    take W idx j = W (ix2 ⟨(idx (ix3 (j 0) 0 0)).toNat, Nat.lt_succ_of_le (h _)⟩ (j 3)) := by
  have hk := h (ix3 (j 0) 0 0)
  show Scalar.select (inRange idx _) (Host.gather _ W (startIdx idx) j) _ = _
  rw [inRange_apply idx h, select_one, gather_apply]
  refine congrArg W (congrArg (fun a => ix2 a (j 3)) (Fin.ext ?_))
  show min (startIdx idx (ix4 (j 0) (j 1) (j 2) 0)).toInt.toNat 100000 = (idx (ix3 (j 0) 0 0)).toNat
  rw [startIdx_apply, wrapped_apply idx _ hk, toInt_of_le _ hk, Int.toNat_natCast]
  omega

/-- The reshape of one call's result is the lookup of the specification: entry (r, k) is the table at row idx[r],
    column k. -/
theorem reshape_take (W : FVec F S100001x128 .f32) (idx : IVec S4096x1x1 32) (h : ∀ i, (idx i).toNat ≤ 100000) :
    shapeCast S4096x128 (take W idx) shapeCasts_S4096x1x1x128_S4096x128 = Cert.Spec.lookup idx W := by
  funext j
  rw [shapeCast_apply _ _ j (ix4 (n0 := 4096) (n1 := 1) (n2 := 1) (n3 := 128) (j 0) 0 0 (j 1))
    (by rw [Shape.rowMajor_val_two, Shape.rowMajor_val_four]
        show (((j 0).val * 1 + 0) * 1 + 0) * 128 + (j 1).val = (j 0).val * 128 + (j 1).val
        omega)]
  rw [take_apply W idx h]
  unfold Cert.Spec.lookup
  refine congrArg W (congrArg (fun a => ix2 a (j 1)) (Fin.ext ?_))
  show (idx (ix3 (j 0) 0 0)).toNat = (Cert.Spec.rowOfWord (idx (ix3 (j 0) 0 0))).val
  exact (Cert.Spec.rowOfWord_val_of_lt _ (Nat.lt_succ_of_le (h _))).symm

end Cert.Proof.RefSide

end
-- ==== Proof.RefRun.lean ====
/-
  The reference program's run, read back. Its entry function calls the lookup function twice, once per table, each
  call followed by a reshape; a call is the callee's operations run in place over the call's own buffers. So the program
  is one straight line of forty-eight array operations, and every weakly fair execution of it terminates with each buffer
  holding what the operations, composed in order, compute from the argument arrays. Under the precondition each of the
  two results is the lookup of the shared specification, and the three argument arrays are unchanged.
-/
import proofs.«206929_g83056077570062_cont_9to1c4b_839_6_alg».proof.Defs
import proofs.«206929_g83056077570062_cont_9to1c4b_839_6_alg».proof.Proof.Gen.ReferenceIdeal
import proofs.«206929_g83056077570062_cont_9to1c4b_839_6_alg».proof.Proof.Gen.Pre_input_domain
import proofs.«206929_g83056077570062_cont_9to1c4b_839_6_alg».proof.Proof.Spec
import proofs.«206929_g83056077570062_cont_9to1c4b_839_6_alg».proof.Proof.RefPre
import proofs.«206929_g83056077570062_cont_9to1c4b_839_6_alg».proof.Proof.RefValue
import Idealize.ShloMosaic.Lib.StableHlo.Run

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-- The entry function's forty-eight operations in order, the calls unfolded: the twenty-three of the lookup function
    over the first call's buffers, reading the first table; the reshape of its result; the same twenty-three over the
    second call's buffers, reading the second table; the reshape of its result. Within a call the seventh operation is
    the select of the inner function that chooses between a word and the word moved up. -/
abbrev ops : List (HloOp τ sig (Elt F)) :=
  [ TRef.nullary main_call0.c (constantI S_ 32 0#32),
    TRef.unary main_call0.c main_call0.v0 (broadcastInDim S4096x1x1 ![] bcast_S_S4096x1x1),
    TRef.binary (.of main_arg0) main_call0.v0 main_call0.v1 (cmpi .slt),
    TRef.nullary main_call0.c_0 (constantI S_ 32 100001#32),
    TRef.unary main_call0.c_0 main_call0.v2 (broadcastInDim S4096x1x1 ![] bcast_S_S4096x1x1),
    TRef.binary (.of main_arg0) main_call0.v2 main_call0.v3 addi,
    TRef.ternary main_call0.v1 main_call0.v3 (.of main_arg0) main_call0.call0.v0 select,
    TRef.unary main_call0.call0.v0 main_call0.v5 (broadcastInDim S4096x1x1x1 ![0, 1, 2] bcast_S4096x1x1_S4096x1x1x1_0_1_2),
    TRef.nullary main_call0.c_1 (constantI S1 32 100000#32),
    TRef.nullary main_call0.c_2 (constantI S_ 32 0#32),
    TRef.unary main_call0.c_2 main_call0.v6 (broadcastInDim S4096x1x1x1 ![] bcast_S_S4096x1x1x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S4096x1x1x1 ![0, 1, 2, 3] bcast_S1x1x1x1_S4096x1x1x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1x1x1_S4096x1x1_d3 h_S_),
    TRef.binary (.of main_arg1) main_call0.v5 main_call0.v13 (fun x i => Host.gather gather_S100001x128_S4096x1x1x1_S4096x1x1x128_3_0_n_n_0_3_1128 x i),
    TRef.unary main_call0.v12 main_call0.v14 (broadcastInDim S4096x1x1x128 ![0, 1, 2] bcast_S4096x1x1_S4096x1x1x128_0_1_2),
    TRef.nullary main_call0.cst (constant S_ .f32 0x7FC00000#32),
    TRef.unary main_call0.cst main_call0.v15 (broadcastInDim S4096x1x1x128 ![] bcast_S_S4096x1x1x128),
    TRef.ternary main_call0.v14 main_call0.v13 main_call0.v15 main_call0.v16 select,
    reshape main_v0 main_v1 rfl shapeCasts_S4096x1x1x128_S4096x128,
    TRef.nullary main_call1.c (constantI S_ 32 0#32),
    TRef.unary main_call1.c main_call1.v0 (broadcastInDim S4096x1x1 ![] bcast_S_S4096x1x1),
    TRef.binary (.of main_arg0) main_call1.v0 main_call1.v1 (cmpi .slt),
    TRef.nullary main_call1.c_0 (constantI S_ 32 100001#32),
    TRef.unary main_call1.c_0 main_call1.v2 (broadcastInDim S4096x1x1 ![] bcast_S_S4096x1x1),
    TRef.binary (.of main_arg0) main_call1.v2 main_call1.v3 addi,
    TRef.ternary main_call1.v1 main_call1.v3 (.of main_arg0) main_call1.call0.v0 select,
    TRef.unary main_call1.call0.v0 main_call1.v5 (broadcastInDim S4096x1x1x1 ![0, 1, 2] bcast_S4096x1x1_S4096x1x1x1_0_1_2),
    TRef.nullary main_call1.c_1 (constantI S1 32 100000#32),
    TRef.nullary main_call1.c_2 (constantI S_ 32 0#32),
    TRef.unary main_call1.c_2 main_call1.v6 (broadcastInDim S4096x1x1x1 ![] bcast_S_S4096x1x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4096x1x1x1 ![0, 1, 2, 3] bcast_S1x1x1x1_S4096x1x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1x1x1_S4096x1x1_d3 h_S_),
    TRef.binary (.of main_arg2) main_call1.v5 main_call1.v13 (fun x i => Host.gather gather_S100001x128_S4096x1x1x1_S4096x1x1x128_3_0_n_n_0_3_1128 x i),
    TRef.unary main_call1.v12 main_call1.v14 (broadcastInDim S4096x1x1x128 ![0, 1, 2] bcast_S4096x1x1_S4096x1x1x128_0_1_2),
    TRef.nullary main_call1.cst (constant S_ .f32 0x7FC00000#32),
    TRef.unary main_call1.cst main_call1.v15 (broadcastInDim S4096x1x1x128 ![] bcast_S_S4096x1x1x128),
    TRef.ternary main_call1.v14 main_call1.v13 main_call1.v15 main_call1.v16 select,
    reshape main_v2 main_v3 rfl shapeCasts_S4096x1x1x128_S4096x128 ]

-- forty-eight binds re-associated: the rewrite under the chain recurses once per statement
set_option maxRecDepth 2048 in
/-- The entry function is that straight line: the two functions' definitions unfolded at their calls, both sides are
    one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

/-! ## What each buffer of the claim holds after the line -/

attribute [local irreducible] Host.reduce Host.gather in
/-- The first result: the reshape of the first call's value, the lookup function of the first table and the index
    words. Each operation's result is read off at its own buffer, and every other buffer keeps what it held. -/
theorem out0_eq (V : Valuation τ sig (Elt F)) :
    after ops V (main_v1 : DevRef τ sig)
      = shapeCast S4096x128 (take (V (main_arg1 : DevRef τ sig)) (V (main_arg0 : DevRef τ sig))) shapeCasts_S4096x1x1x128_S4096x128 := by
  after_results_simp
  rfl

attribute [local irreducible] Host.reduce Host.gather in
/-- The second result: the same function of the second table and the same index words. -/
theorem out1_eq (V : Valuation τ sig (Elt F)) :
    after ops V (main_v3 : DevRef τ sig)
      = shapeCast S4096x128 (take (V (main_arg2 : DevRef τ sig)) (V (main_arg0 : DevRef τ sig))) shapeCasts_S4096x1x1x128_S4096x128 := by
  after_results_simp
  rfl

/-- No operation writes an argument array. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-! ## The run -/

/-- At the compiled mesh, from any memory with zero counters of which the precondition holds: every weakly fair
    execution of the entry function terminates, each of the two results is the lookup of the specification (row r of
    the result is row idx[r] of its table), and the three argument arrays are unchanged. The precondition gives that
    every index word is at most 100000, which is what makes one call's value the lookup. -/
theorem run (m : (ℓ : Loc Cert.ReferenceIdeal.nD Cert.ReferenceIdeal.τ Cert.ReferenceIdeal.sig) → Buf (Elt Ideal) ℓ) (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v1) = Cert.Spec.lookup (m ((c.tc : Thread _ _).loc Cert.ReferenceIdeal.main_arg0)) (m ((c.tc : Thread _ _).loc Cert.ReferenceIdeal.main_arg1))
      ∧ r.2.mem ((c.tc : Thread _ _).loc Cert.ReferenceIdeal.main_v3) = Cert.Spec.lookup (m ((c.tc : Thread _ _).loc Cert.ReferenceIdeal.main_arg0)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run defs _ _).mono (fun _ h c => by
      have hb := idx_le_of_pre _ _ _ (hpre c)
      exact ⟨(h c main_v1).trans ((out0_eq _).trans (reshape_take _ _ hb)),
        (h c main_v3).trans ((out1_eq _).trans (reshape_take _ _ hb)),
        (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.Proof.RefSide

end
-- ==== Proof.lean ====
/-
  Two embedding lookups, one per table: result `h` is the rows `idx[r]` of table `h`, result `c` the rows `idx[r]` of
  table `c`, for the same 4096 index words (each between 0 and 100000 under the precondition, so each names a row).

  The kernel computes them on the SparseCores: thirty-two vector subcores each take 128 indices, gather the rows they
  name out of both tables and write them to their block of each result; the blocks tile the results, so each result ends
  as the whole lookup (Proof/KI for the idealized program, Proof/KB the same text for the program as printed). The
  reference computes them with jnp.take, whose wrap-around of negative indices, clamp and out-of-range mask all do
  nothing on words in range (Proof/RefRun, Proof/RefValue). Both are the one function `Cert.Spec.lookup` of the
  arguments (Proof/Spec), index by index, with no arithmetic on the table's entries at all: the results are equal as
  extended reals because they are the same entries of the same tables. The ideal pass rewrote nothing, so the
  idealized kernel is the kernel's own text and `preserves` has nothing to state.
-/
import proofs.«206929_g83056077570062_cont_9to1c4b_839_6_alg».proof.Defs
import proofs.«206929_g83056077570062_cont_9to1c4b_839_6_alg».proof.Proof.Gen.Kernel
import proofs.«206929_g83056077570062_cont_9to1c4b_839_6_alg».proof.Proof.Gen.Kernel.Skeleton
import proofs.«206929_g83056077570062_cont_9to1c4b_839_6_alg».proof.Proof.Gen.KernelIdeal
import proofs.«206929_g83056077570062_cont_9to1c4b_839_6_alg».proof.Proof.Gen.KernelIdeal.Skeleton
import proofs.«206929_g83056077570062_cont_9to1c4b_839_6_alg».proof.Proof.Gen.ReferenceIdeal
import proofs.«206929_g83056077570062_cont_9to1c4b_839_6_alg».proof.Proof.Gen.Pre_input_domain
import proofs.«206929_g83056077570062_cont_9to1c4b_839_6_alg».proof.Proof.KI.Bridge
import proofs.«206929_g83056077570062_cont_9to1c4b_839_6_alg».proof.Proof.KB.Bridge
import proofs.«206929_g83056077570062_cont_9to1c4b_839_6_alg».proof.Proof.RefRun
import Idealize.ShloMosaic.Adequacy
import Idealize.ShloMosaic.Init

noncomputable section

namespace Cert.Proof

open Idealize.ShloMosaic Idealize.SL.Sem

/-- The kernel as printed runs to the end with its arguments unchanged. -/
theorem frame_k : Cert.frame_Kernel := fun m ρ hpre =>
  (θ_run Cert.Kernel.defs _ _).mono (fun _ h c => ⟨(h c).1, (h c).2.1, (h c).2.2.1⟩)
    (Cert.Proof.KB.run_main (F := Bits) m ρ (Cert.Proof.KB.hpre_of_pre m hpre))

/-- So does the idealized kernel. -/
theorem frame_ki : Cert.frame_KernelIdeal := fun m ρ hpre =>
  (θ_run Cert.KernelIdeal.defs _ _).mono (fun _ h c => ⟨(h c).1, (h c).2.1, (h c).2.2.1⟩)
    (Cert.Proof.KI.run_main (F := Ideal) m ρ (Cert.Proof.KI.hpre_of_pre m hpre))

/-- So does the reference. -/
theorem frame_ri : Cert.frame_ReferenceIdeal := fun m ρ hpre =>
  (θ_run Cert.ReferenceIdeal.defs _ _).mono (fun _ h c => (h c).2.2) (Cert.Proof.RefSide.run m ρ hpre)

/-- From memories that agree on the arguments both programs end with each result at the lookup of the index argument
    in its table: the same function of the same arrays. -/
theorem algebraic : Cert.algebraic_KernelIdeal_ReferenceIdeal := by
  intro m g m' g' hpre hagree
  refine ⟨fun c => Cert.Spec.lookup (m (Cert.Proof.KI.aLoc c)) (m (Cert.Proof.KI.hLoc c)),
    fun c => Cert.Spec.lookup (m (Cert.Proof.KI.aLoc c)) (m (Cert.Proof.KI.cLoc c)), ?_, ?_⟩
  · refine (θ_run Cert.KernelIdeal.defs _ _).mono (fun r h c => ?_)
      (Cert.Proof.KI.run_main (F := Ideal) m g (Cert.Proof.KI.hpre_of_pre m hpre))
    obtain ⟨h0, h1, h2, h3, h4⟩ := h c
    exact ⟨h3.trans (Cert.Proof.KI.lookF_vI m c _), h4.trans (Cert.Proof.KI.lookF_vI m c _), h0, h1, h2⟩
  · have hpre' : Cert.Pre_ReferenceIdeal m' := fun c => by
      rw [(hagree c).1, (hagree c).2.1, (hagree c).2.2]; exact hpre c
    refine (θ_run Cert.ReferenceIdeal.defs _ _).mono (fun r h c => ?_) (Cert.Proof.RefSide.run m' g' hpre')
    obtain ⟨h0, h1, h2, h3, h4⟩ := h c
    refine ⟨h0.trans ?_, h1.trans ?_, h2, h3, h4⟩
    · rw [(hagree c).1, (hagree c).2.1]
    · rw [(hagree c).1, (hagree c).2.2]

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
